-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  main_v8
-- ==== Kernel.lean ====
abbrev S8x2048x512 : Shape := ⟨3, ![8, 2048, 512]⟩
abbrev S8x64x512 : Shape := ⟨3, ![8, 64, 512]⟩
abbrev S8x64x1 : Shape := ⟨3, ![8, 64, 1]⟩
abbrev S8x128x512 : Shape := ⟨3, ![8, 128, 512]⟩
abbrev S8x64x128 : Shape := ⟨3, ![8, 64, 128]⟩
abbrev S8x64 : Shape := ⟨2, ![8, 64]⟩

abbrev nBuf : Space → Nat
  | .hbm => 3
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .local _ .vmem, ⟨0, _⟩ => ⟨S8x64x512, .f32⟩
  | .local _ .vmem, ⟨1, _⟩ => ⟨S8x64x512, .f32⟩
  | .local _ .vmem, ⟨2, _⟩ => ⟨S8x2048x512, .f32⟩
  | .local _ .vmem, ⟨3, _⟩ => ⟨S8x64x512, .f32⟩
  | .local _ .vmem, ⟨4, _⟩ => ⟨S8x64x512, .f32⟩
  | .local _ .vmem, ⟨5, _⟩ => ⟨S8x64x1, .f32⟩
  | .local _ .vmem, ⟨6, _⟩ => ⟨S8x64x1, .f32⟩
  | .local _ .vmem, ⟨7, _⟩ => ⟨S8x64x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
def k0_mult1 (k0_t1 : Fin k0_t1_loop.trips) : BitVec 32 :=
  let c0_i32_24 : BitVec 32 := 0#32
  let c0_i32 : BitVec 32 := 0#32
  let c1_i32 : BitVec 32 := 1#32
  let arg7 : BitVec 32 := Scf.iv c0_i32 c1_i32 k0_t1
  let c1_i32_23 : BitVec 32 := 1#32
  let v19 : BitVec 32 := Scalar.muli arg7 c1_i32_23
  let v20 : BitVec 32 := Scalar.addi c0_i32_24 v19
  let c128_i32 : BitVec 32 := 128#32
  let v21 : BitVec 32 := Scalar.muli v20 c128_i32
  v21
def k0_off1 (k0_t1 : Fin k0_t1_loop.trips) : Fin 3 → Nat :=
  let c0_25 : Index := 0#32
  let c0_i32_24 : BitVec 32 := 0#32
  let c0_i32 : BitVec 32 := 0#32
  let c1_i32 : BitVec 32 := 1#32
  let arg7 : BitVec 32 := Scf.iv c0_i32 c1_i32 k0_t1
  let c1_i32_23 : BitVec 32 := 1#32
  let v19 : BitVec 32 := Scalar.muli arg7 c1_i32_23
  let v20 : BitVec 32 := Scalar.addi c0_i32_24 v19
  let c128_i32 : BitVec 32 := 128#32
  let v21 : BitVec 32 := Scalar.muli v20 c128_i32
  let v22 : BitVec 32 := v21
  let v23 : Index := Scalar.indexCast v22
  let c0_26 : Index := 0#32
  ![0, v23.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x64x1_S8x64x1_0_0_0 : ∀ a, (![0, 0, 0] : Fin 3 → Nat) a + S8x64x1.size a ≤ S8x64x1.size a
  h_S8x64x1 : 0 < S8x64x1.numel
  shapeCasts_S8x64x1_S8x64x1 : S8x64x1.ShapeCasts S8x64x1
  inb_S8x64x512_S8x64x512_0_0_0 : ∀ a, (![0, 0, 0] : Fin 3 → Nat) a + S8x64x512.size a ≤ S8x64x512.size a
  h_S8x64x512 : 0 < S8x64x512.numel
  shapeCasts_S8x64x512_S8x64x512 : S8x64x512.ShapeCasts S8x64x512
  h_S8x128x512 : 0 < S8x128x512.numel
  reduces_S8x64x128_S8x64 : S8x64x128.Reduces [2] S8x64
  shapeCasts_S8x64_S8x64x1 : S8x64.ShapeCasts S8x64x1
  broadcasts_S8x64x1_S8x64x128 : S8x64x1.Broadcasts S8x64x128
  bitsLt_bf16_f32 : FTy.bits .bf16 < FTy.bits .f32
  broadcasts_S8x64x1_S8x64x512 : S8x64x1.Broadcasts S8x64x512
  dot_S8x64x512_S8x128x512_S8x64x128_2_2_1_1_0_0_wf : DotDims.WF S8x64x512 S8x128x512 S8x64x128 [2] [2] [1] [1] [0] [0]
  dot_S8x64x128_S8x128x512_S8x64x512_2_1_1_2_0_0_wf : DotDims.WF S8x64x128 S8x128x512 S8x64x512 [2] [1] [1] [2] [0] [0]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S8x128x512.size a ≤ S8x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x512.size a ≤ S8x2048x512.size a
  hwx0_0 : ∀ i : grid0.Coords, EltTy.bits .f32 = 32 ∨ (Rect.block (s := S8x2048x512) S8x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048x512.size a ≤ S8x2048x512.size a
  hwx0_1 : ∀ i : grid0.Coords, EltTy.bits .f32 = 32 ∨ (Rect.block (s := S8x2048x512) S8x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x512.size a ≤ S8x2048x512.size a
  hwx0_2 : ∀ i : grid0.Coords, EltTy.bits .f32 = 32 ∨ (Rect.block (s := S8x2048x512) S8x64x512.size (cc0_transform_2 i) (hinb0_2 i)).WholeWords (EltTy.packing .f32)

variable [Facts₀]

def dot_S8x64x512_S8x128x512_S8x64x128_2_2_1_1_0_0 : DotDims S8x64x512 S8x128x512 S8x64x128 where
  lhsContracting := [2]
  rhsContracting := [2]
  lhsNonContracting := [1]
  rhsNonContracting := [1]
  lhsBatch := [0]
  rhsBatch := [0]
  wf := dot_S8x64x512_S8x128x512_S8x64x128_2_2_1_1_0_0_wf
def dot_S8x64x128_S8x128x512_S8x64x512_2_1_1_2_0_0 : DotDims S8x64x128 S8x128x512 S8x64x512 where
  lhsContracting := [2]
  rhsContracting := [1]
  lhsNonContracting := [1]
  rhsNonContracting := [2]
  lhsBatch := [0]
  rhsBatch := [0]
  wf := dot_S8x64x128_S8x128x512_S8x64x512_2_1_1_2_0_0_wf

abbrev win0_0 : Pipeline.Window sig grid0 :=
  Pipeline.Window.ofSpec (Memref.whole main_arg0) S8x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.KState.lean ====
/-
  The streaming kernel's carried state as vectors. One grid point holds a block of 64 query rows for all 8 batches.
  Its three scratch buffers carry, per row, the running maximum, the running denominator and (per feature) the running
  numerator. They start at minus infinity, zero and zero; visiting a chunk of 128 keys replaces them by the chunk's
  update of the three. This file writes the state after `n` chunks as a recursion over the chunk updates, for any
  family of 16 key chunks, and the point's result as the quotient of the last numerator by the last denominator.
-/
import proofs.«174658_j70257075028315_2_alg».proof.Proof.Gen.KernelIdeal.Skeleton

noncomputable section

namespace Cert.KernelIdeal.Flash

open Cert.KernelIdeal Cert.KernelIdeal.Gen Idealize.ShloMosaic

variable {F : FTy → Type} [FloatOps F]

/-- The running maximum after `n` chunks, for the query block `x0` and the key chunks `Xc`. -/
def stM (x0 : Vec F S8x64x512 .f32) (Xc : Fin 16 → Vec F S8x128x512 .f32) : ℕ → FVec F S8x64x1 .f32
  | 0 => k0_pay1
  | n + 1 => if h : n < 16 then k0_pay4 (k0_pay7 x0 (Xc ⟨n, h⟩) (stM x0 Xc n)) else stM x0 Xc n

/-- The running denominator after `n` chunks. -/
def stL (x0 : Vec F S8x64x512 .f32) (Xc : Fin 16 → Vec F S8x128x512 .f32) : ℕ → FVec F S8x64x1 .f32
  | 0 => k0_pay2
  | n + 1 => if h : n < 16 then k0_pay10 x0 (Xc ⟨n, h⟩) (stM x0 Xc n) (stL x0 Xc n) else stL x0 Xc n

/-- The running numerator after `n` chunks. -/
def stA (x0 : Vec F S8x64x512 .f32) (Xc : Fin 16 → Vec F S8x128x512 .f32) : ℕ → FVec F S8x64x512 .f32
  | 0 => k0_pay3
  | n + 1 => if h : n < 16 then k0_pay11 x0 (Xc ⟨n, h⟩) (stM x0 Xc n) (stA x0 Xc n) else stA x0 Xc n

theorem stM_succ (x0 : Vec F S8x64x512 .f32) (Xc : Fin 16 → Vec F S8x128x512 .f32) (n : Fin 16) :
    stM x0 Xc (n.val + 1) = k0_pay4 (k0_pay7 x0 (Xc n) (stM x0 Xc n.val)) := by
  rw [stM, dif_pos n.isLt]

theorem stL_succ (x0 : Vec F S8x64x512 .f32) (Xc : Fin 16 → Vec F S8x128x512 .f32) (n : Fin 16) :
    stL x0 Xc (n.val + 1) = k0_pay10 x0 (Xc n) (stM x0 Xc n.val) (stL x0 Xc n.val) := by
  rw [stL, dif_pos n.isLt]

theorem stA_succ (x0 : Vec F S8x64x512 .f32) (Xc : Fin 16 → Vec F S8x128x512 .f32) (n : Fin 16) :
    stA x0 Xc (n.val + 1) = k0_pay11 x0 (Xc n) (stM x0 Xc n.val) (stA x0 Xc n.val) := by
  rw [stA, dif_pos n.isLt]

/-- What the point stores into its output block: the last numerator over the last denominator. -/
def result (x0 : Vec F S8x64x512 .f32) (Xc : Fin 16 → Vec F S8x128x512 .f32) : FVec F S8x64x512 .f32 :=
  k0_pay5 (stA x0 Xc 16) (stL x0 Xc 16)

end Cert.KernelIdeal.Flash

end
-- ==== Proof.LibWholeBuffer.lean ====
/-
  Whole-buffer round trips. A kernel that keeps a carried value in a scratch buffer stores it through the rectangle that is
  the whole buffer (zero offsets, the buffer's own sizes) and loads it back through the same rectangle. Two facts make
  such a buffer transparent to a value proof: a load through the whole-buffer rectangle, after a list of writes whose LAST
  one stored the whole buffer, reads that store's payload, whatever was written before and whatever the buffer held; and a
  whole staging buffer whose contents read as `x` is read back as `x` through the whole-buffer rectangle.
-/
import Idealize.ShloMosaic.Lib.Pipeline.Value

noncomputable section

namespace Cert.LibWholeBuffer

open Idealize.ShloMosaic

variable {Val : EltTy → Type} {sig : RefSig} {κ : Kind} {sp : Space} {S : Shape} {e : EltTy}

/-- A load of a whole buffer, after writes the last of which stored the whole buffer, reads that store's payload. -/
theorem readAt_whole_writes_cons [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.readAt Val (Rect.unit off S.size inb).toLoadRect
      (v.writes Val f ((⟨Rect.unit off S.size inb, w⟩ : View.Piece Val S e) :: L)) = w := by
  rw [View.readAt_eq_ld, View.read_writes_eq_canon _ _ _ (fun y => ⟨_, List.mem_cons_self, View.mem_set_unit_zero h inb y⟩),
    View.canon_cons_unit_zero h, View.ld_unit_zero h]

/-- A whole staging buffer holding `x` reads back `x` through the whole-buffer rectangle. -/
theorem readAt_whole_unread (mr : Memref sig κ sp S e) (h : mr.IsWhole) (x : S.Idx → Val e)
    {off : Fin S.rank → Nat} (hz : off = fun _ => 0) (inb : ∀ a, off a + S.size a ≤ S.size a) :
    View.readAt Val mr.view (Rect.unit off S.size inb).toLoadRect (h.unread x) = x := by
  rw [View.readAt_eq_ld, h.read_unread, View.ld_unit_zero hz]

/-- The zero offsets of a whole rank-2 buffer, as a literal vector. -/
theorem off2_zero : (![0, 0] : Fin 2 → Nat) = fun _ => 0 :=
  funext fun a => by match a with | ⟨0, _⟩ => rfl | ⟨1, _⟩ => rfl

/-- The zero offsets of a whole rank-3 buffer, as a literal vector. -/
theorem off3_zero : (![0, 0, 0] : Fin 3 → Nat) = fun _ => 0 :=
  funext fun a => by match a with | ⟨0, _⟩ => rfl | ⟨1, _⟩ => rfl | ⟨2, _⟩ => rfl

end Cert.LibWholeBuffer

end
-- ==== Proof.Pieces.lean ====
/-
  What one grid point of the streaming kernel leaves in its output block, read off the run of its body.

  The body zeroes its three scratch buffers (running maximum at minus infinity, denominator and numerator at zero), then
  visits the 16 chunks of 128 keys; every visit rewrites each scratch buffer WHOLE with the chunk's update of what it
  found there; at the end the output block is the numerator over the denominator. A buffer rewritten whole reads back
  as the last value written, so after `n` visits the three buffers read as the state recursion `stM`, `stL`, `stA`,
  by induction on `n`, and the output block is `Flash.result`.
-/
import proofs.«174658_j70257075028315_2_alg».proof.Proof.Gen.KernelIdeal.Frame
import proofs.«174658_j70257075028315_2_alg».proof.Proof.KState
import proofs.«174658_j70257075028315_2_alg».proof.Proof.LibWholeBuffer
import Idealize.ShloMosaic.Lib.Pipeline.Value

set_option maxRecDepth 16384

noncomputable section

namespace Cert.KernelIdeal.Flash

open Cert.KernelIdeal Cert.KernelIdeal.Gen Idealize.ShloMosaic Idealize.ShloMosaic.TcCoe Idealize.ShloMosaic.Tactic
open Idealize.SL Idealize.SL.Sem Cert.LibWholeBuffer

variable {F : FTy → Type} [FloatOps F]

/-- The loop over the key chunks makes 16 trips. -/
theorem trips_eq : k0_t1_loop.trips = 16 := by decide +kernel

/-- Chunk `k` of the keys, as the body loads it from the resident key buffer. -/
def chunkAt (arg2 : Memref sig .tc .vmem S8x2048x512 .f32) (X : BufTy.Contents (Elt F) arg2.view.ty) (k : Fin k0_t1_loop.trips) :
    Vec F S8x128x512 .f32 :=
  View.readAt (Elt F) arg2.view (Rect.unit (s := S8x2048x512) (k0_off1 k) S8x128x512.size (k0_off1_inb k)).toLoadRect X

/-- The 16 chunks, indexed by `Fin 16`. -/
def chunks (arg2 : Memref sig .tc .vmem S8x2048x512 .f32) (X : BufTy.Contents (Elt F) arg2.view.ty) : Fin 16 → Vec F S8x128x512 .f32 :=
  fun n => chunkAt arg2 X (Fin.cast trips_eq.symm n)

/-- The whole-buffer rectangles of the two scratch shapes. -/
abbrev U1 : Rect S8x64x1 := Rect.unit (s := S8x64x1) ![0, 0, 0] S8x64x1.size inb_S8x64x1_S8x64x1_0_0_0
abbrev U512 : Rect S8x64x512 := Rect.unit (s := S8x64x512) ![0, 0, 0] S8x64x512.size inb_S8x64x512_S8x64x512_0_0_0

/-- One trip's pieces: each scratch buffer rewritten whole with the chunk's update of what the trip finds there. -/
theorem tripL_eq (𝒱 : Variants) (c : Dev nD) (bd : Option 𝒱.V) (i : grid0.Coords) (arg1 : Memref sig .tc .vmem S8x64x512 .f32) (harg1 : arg1.IsWhole) (arg2 : Memref sig .tc .vmem S8x2048x512 .f32) (harg2 : arg2.IsWhole) (arg3 : Memref sig .tc .vmem S8x64x512 .f32) (harg3 : arg3.IsWhole) (arg4 : Memref sig .tc .vmem S8x64x1 .f32) (harg4 : arg4.IsWhole) (arg5 : Memref sig .tc .vmem S8x64x1 .f32) (harg5 : arg5.IsWhole) (arg6 : Memref sig .tc .vmem S8x64x512 .f32) (harg6 : arg6.IsWhole)
    (v12 : Vec F S8x64x512 .f32) (X : BufTy.Contents (Elt F) arg2.view.ty) (k : Fin k0_t1_loop.trips)
    (f4 : BufTy.Contents (Elt F) arg4.view.ty) (f5 : BufTy.Contents (Elt F) arg5.view.ty) (f6 : BufTy.Contents (Elt F) arg6.view.ty) :
    tripL_k0_t1 (F := F) 𝒱 c bd i arg1 harg1 arg2 harg2 arg3 harg3 arg4 harg4 arg5 harg5 arg6 harg6 v12 X k f4 f5 f6
      = ([⟨U1, k0_pay4 (k0_pay7 v12 (chunkAt arg2 X k) (View.readAt (Elt F) arg4.view U1.toLoadRect f4))⟩],
         [⟨U1, k0_pay10 v12 (chunkAt arg2 X k) (View.readAt (Elt F) arg4.view U1.toLoadRect f4) (View.readAt (Elt F) arg5.view U1.toLoadRect f5)⟩],
         [⟨U512, k0_pay11 v12 (chunkAt arg2 X k) (View.readAt (Elt F) arg4.view U1.toLoadRect f4) (View.readAt (Elt F) arg6.view U512.toLoadRect f6)⟩]) := by
  unfold tripL_k0_t1 trip_k0_t1
  dsimp only
  sl_unfold_words
  rfl

section after
variable (𝒱 : Variants) (c : Dev nD) (bd : Option 𝒱.V) (i : grid0.Coords) (arg1 : Memref sig .tc .vmem S8x64x512 .f32) (harg1 : arg1.IsWhole) (arg2 : Memref sig .tc .vmem S8x2048x512 .f32) (harg2 : arg2.IsWhole) (arg3 : Memref sig .tc .vmem S8x64x512 .f32) (harg3 : arg3.IsWhole) (arg4 : Memref sig .tc .vmem S8x64x1 .f32) (harg4 : arg4.IsWhole) (arg5 : Memref sig .tc .vmem S8x64x1 .f32) (harg5 : arg5.IsWhole) (arg6 : Memref sig .tc .vmem S8x64x512 .f32) (harg6 : arg6.IsWhole)
  (v12 : Vec F S8x64x512 .f32) (X : BufTy.Contents (Elt F) arg2.view.ty)
  (G4 : BufTy.Contents (Elt F) arg4.view.ty) (G5 : BufTy.Contents (Elt F) arg5.view.ty) (G6 : BufTy.Contents (Elt F) arg6.view.ty)

/-- Trip `n` puts, in front of each buffer's pieces, one whole-buffer piece: the chunk's update of what the earlier
    trips left. -/
theorem pb_succ_eq (n : ℕ) (hlt : n < k0_t1_loop.trips) (M : FVec F S8x64x1 .f32) (L : FVec F S8x64x1 .f32) (Acc : FVec F S8x64x512 .f32)
    (i4 : View.readAt (Elt F) arg4.view U1.toLoadRect (arg4.view.writes (Elt F) G4 (pb_k0_t1 (F := F) 𝒱 c bd i arg1 harg1 arg2 harg2 arg3 harg3 arg4 harg4 arg5 harg5 arg6 harg6 v12 X G4 G5 G6 n).1) = M)
    (i5 : View.readAt (Elt F) arg5.view U1.toLoadRect (arg5.view.writes (Elt F) G5 (pb_k0_t1 (F := F) 𝒱 c bd i arg1 harg1 arg2 harg2 arg3 harg3 arg4 harg4 arg5 harg5 arg6 harg6 v12 X G4 G5 G6 n).2.1) = L)
    (i6 : View.readAt (Elt F) arg6.view U512.toLoadRect (arg6.view.writes (Elt F) G6 (pb_k0_t1 (F := F) 𝒱 c bd i arg1 harg1 arg2 harg2 arg3 harg3 arg4 harg4 arg5 harg5 arg6 harg6 v12 X G4 G5 G6 n).2.2) = Acc) :
    pb_k0_t1 (F := F) 𝒱 c bd i arg1 harg1 arg2 harg2 arg3 harg3 arg4 harg4 arg5 harg5 arg6 harg6 v12 X G4 G5 G6 (n + 1)
      = ((⟨U1, k0_pay4 (k0_pay7 v12 (chunkAt arg2 X ⟨n, hlt⟩) M)⟩ : View.Piece (Elt F) S8x64x1 .f32) :: (pb_k0_t1 (F := F) 𝒱 c bd i arg1 harg1 arg2 harg2 arg3 harg3 arg4 harg4 arg5 harg5 arg6 harg6 v12 X G4 G5 G6 n).1,
         (⟨U1, k0_pay10 v12 (chunkAt arg2 X ⟨n, hlt⟩) M L⟩ : View.Piece (Elt F) S8x64x1 .f32) :: (pb_k0_t1 (F := F) 𝒱 c bd i arg1 harg1 arg2 harg2 arg3 harg3 arg4 harg4 arg5 harg5 arg6 harg6 v12 X G4 G5 G6 n).2.1,
         (⟨U512, k0_pay11 v12 (chunkAt arg2 X ⟨n, hlt⟩) M Acc⟩ : View.Piece (Elt F) S8x64x512 .f32) :: (pb_k0_t1 (F := F) 𝒱 c bd i arg1 harg1 arg2 harg2 arg3 harg3 arg4 harg4 arg5 harg5 arg6 harg6 v12 X G4 G5 G6 n).2.2) := by
  have hs := pb_k0_t1_succ (F := F) 𝒱 c bd i arg1 harg1 arg2 harg2 arg3 harg3 arg4 harg4 arg5 harg5 arg6 harg6 v12 X G4 G5 G6 ⟨n, hlt⟩
  rw [tripL_eq] at hs
  dsimp only at hs
  rw [i4, i5, i6] at hs
  exact hs

/-- After `n` trips the three scratch buffers read as the state after `n` chunks, from any entry contents that read as
    the initial state. -/
theorem scratch_after
    (h4 : View.readAt (Elt F) arg4.view U1.toLoadRect G4 = k0_pay1)
    (h5 : View.readAt (Elt F) arg5.view U1.toLoadRect G5 = k0_pay2)
    (h6 : View.readAt (Elt F) arg6.view U512.toLoadRect G6 = k0_pay3)
    (n : ℕ) (hn : n ≤ k0_t1_loop.trips) :
    View.readAt (Elt F) arg4.view U1.toLoadRect (arg4.view.writes (Elt F) G4 (pb_k0_t1 (F := F) 𝒱 c bd i arg1 harg1 arg2 harg2 arg3 harg3 arg4 harg4 arg5 harg5 arg6 harg6 v12 X G4 G5 G6 n).1) = stM v12 (chunks arg2 X) n
    ∧ View.readAt (Elt F) arg5.view U1.toLoadRect (arg5.view.writes (Elt F) G5 (pb_k0_t1 (F := F) 𝒱 c bd i arg1 harg1 arg2 harg2 arg3 harg3 arg4 harg4 arg5 harg5 arg6 harg6 v12 X G4 G5 G6 n).2.1) = stL v12 (chunks arg2 X) n
    ∧ View.readAt (Elt F) arg6.view U512.toLoadRect (arg6.view.writes (Elt F) G6 (pb_k0_t1 (F := F) 𝒱 c bd i arg1 harg1 arg2 harg2 arg3 harg3 arg4 harg4 arg5 harg5 arg6 harg6 v12 X G4 G5 G6 n).2.2) = stA v12 (chunks arg2 X) n := by
  induction n with
  | zero =>
    rw [pb_k0_t1.eq_1]
    exact ⟨h4, h5, h6⟩
  | succ n ih =>
    have hlt : n < k0_t1_loop.trips := hn
    have h16 : n < 16 := trips_eq ▸ hlt
    obtain ⟨i4, i5, i6⟩ := ih (Nat.le_of_lt hlt)
    rw [pb_succ_eq 𝒱 c bd i arg1 harg1 arg2 harg2 arg3 harg3 arg4 harg4 arg5 harg5 arg6 harg6 v12 X G4 G5 G6 n hlt _ _ _ i4 i5 i6]
    have hc : chunks arg2 X ⟨n, h16⟩ = chunkAt arg2 X ⟨n, hlt⟩ := rfl
    rw [stM_succ v12 (chunks arg2 X) ⟨n, h16⟩, stL_succ v12 (chunks arg2 X) ⟨n, h16⟩, stA_succ v12 (chunks arg2 X) ⟨n, h16⟩, hc]
    exact ⟨readAt_whole_writes_cons arg4.view _ off3_zero _ _ _, readAt_whole_writes_cons arg5.view _ off3_zero _ _ _,
      readAt_whole_writes_cons arg6.view _ off3_zero _ _ _⟩

end after

end Cert.KernelIdeal.Flash

end
-- ==== Proof.Spec.lean ====
/-
  Attention with the keys as values, row by row, in two arrangements over the extended reals.

  For one query row let `s k` be its score against key `k` (2048 keys) and `v k` the entry of key `k` in the output
  column under consideration. The plain arrangement shifts the scores by the row maximum `M`, exponentiates, divides by
  the sum of the exponentials and takes the weighted sum of the `v k`. The streaming arrangement visits the keys in 16
  consecutive chunks of 128 and carries three numbers: the maximum `m` of the scores seen so far (minus infinity before
  the first chunk), the sum `l` of `exp (s k - m)` over the keys seen, and the sum `a` of `exp (s k - m) * v k`; a new
  chunk raises `m` to `m'`, rescales `l` and `a` by `exp (m - m')` and adds the chunk's own terms at the shift `m'`.
  After the last chunk the result is `a / l`. The two arrangements agree when every score and value is a real number.
-/
import Idealize.ShloMosaic.PureOps.Ideal
import Idealize.ShloMosaic.Lib.ValueIdx

noncomputable section

namespace Cert.Attn

open Idealize.ShloMosaic Idealize.ShloMosaic.ValueIdx
open scoped BigOperators

/-- Key `j` of chunk `n`, among the 2048 keys. -/
def keyOf (n : Fin 16) (j : Fin 128) : Fin 2048 := ⟨128 * n.val + j.val, by have := n.isLt; have := j.isLt; omega⟩

theorem keyOf_val (n : Fin 16) (j : Fin 128) : (keyOf n j).val = 128 * n.val + j.val := rfl

/-- The largest score of chunk `n`, folded from minus infinity. -/
def chunkMax (s : Fin 2048 → EReal) (n : Fin 16) : EReal :=
  (Finset.univ : Finset (Fin 128)).fold max ⊥ (fun j => s (keyOf n j))

/-- The running maximum after the first `n` chunks. -/
def runMax (s : Fin 2048 → EReal) : ℕ → EReal
  | 0 => ⊥
  | n + 1 => if h : n < 16 then max (runMax s n) (chunkMax s ⟨n, h⟩) else runMax s n

/-- The running denominator after the first `n` chunks, at the shift `runMax s n`. -/
def runDen (s : Fin 2048 → EReal) : ℕ → EReal
  | 0 => 0
  | n + 1 => if h : n < 16 then
      Ideal.exp (runMax s n - runMax s (n + 1)) * runDen s n
        + ∑ j : Fin 128, Ideal.exp (s (keyOf ⟨n, h⟩ j) - runMax s (n + 1))
    else runDen s n

/-- The running numerator after the first `n` chunks, at the shift `runMax s n`. -/
def runNum (s v : Fin 2048 → EReal) : ℕ → EReal
  | 0 => 0
  | n + 1 => if h : n < 16 then
      Ideal.exp (runMax s n - runMax s (n + 1)) * runNum s v n
        + ∑ j : Fin 128, Ideal.exp (s (keyOf ⟨n, h⟩ j) - runMax s (n + 1)) * v (keyOf ⟨n, h⟩ j)
    else runNum s v n

theorem runMax_succ (s : Fin 2048 → EReal) (n : Fin 16) :
    runMax s (n.val + 1) = max (runMax s n.val) (chunkMax s n) := by
  rw [runMax, dif_pos n.isLt]

theorem runDen_succ (s : Fin 2048 → EReal) (n : Fin 16) :
    runDen s (n.val + 1) = Ideal.exp (runMax s n.val - runMax s (n.val + 1)) * runDen s n.val
      + ∑ j : Fin 128, Ideal.exp (s (keyOf n j) - runMax s (n.val + 1)) := by
  rw [runDen, dif_pos n.isLt]

theorem runNum_succ (s v : Fin 2048 → EReal) (n : Fin 16) :
    runNum s v (n.val + 1) = Ideal.exp (runMax s n.val - runMax s (n.val + 1)) * runNum s v n.val
      + ∑ j : Fin 128, Ideal.exp (s (keyOf n j) - runMax s (n.val + 1)) * v (keyOf n j) := by
  rw [runNum, dif_pos n.isLt]

/-- The streaming arrangement's result for the row. -/
def online (s v : Fin 2048 → EReal) : EReal := Ideal.div (runNum s v 16) (runDen s 16)

/-- The row maximum as the plain arrangement takes it: the maximum of minus infinity and the fold from minus infinity. -/
def rowMax (s : Fin 2048 → EReal) : EReal := max ⊥ ((Finset.univ : Finset (Fin 2048)).fold max ⊥ s)

/-- The plain arrangement's result for the row: the softmax weights (sum taken from zero) against the values. -/
def softmaxAttn (s v : Fin 2048 → EReal) : EReal :=
  ∑ k : Fin 2048, Ideal.div (Ideal.exp (s k - rowMax s)) (0 + ∑ j : Fin 2048, Ideal.exp (s j - rowMax s)) * v k

/-! ## The whole arrays -/

/-- The shape of the query, key and result arrays. -/
abbrev SArr : Shape := ⟨3, ![8, 2048, 512]⟩

/-- The score of query row `q` against key `k` in batch `b`: the inner product over the 512 features. -/
def score (Q K : SArr.Idx → EReal) (b : Fin 8) (q k : Fin 2048) : EReal :=
  ∑ d : Fin 512, Q (ix3 b q d) * K (ix3 b k d)

/-- Column `d` of the keys of batch `b`, as the values of a row. -/
def valCol (K : SArr.Idx → EReal) (b : Fin 8) (d : Fin 512) : Fin 2048 → EReal := fun k => K (ix3 b k d)

/-- The result array in the streaming arrangement. -/
def onlineArr (Q K : SArr.Idx → EReal) : SArr.Idx → EReal :=
  fun i => online (score Q K (i 0) (i 1)) (valCol K (i 0) (i 2))

/-- The result array in the plain arrangement. -/
def softmaxArr (Q K : SArr.Idx → EReal) : SArr.Idx → EReal :=
  fun i => softmaxAttn (score Q K (i 0) (i 1)) (valCol K (i 0) (i 2))

end Cert.Attn

end
-- ==== Proof.Point.lean ====
/-
  One grid point of the streaming kernel, as values: the output block it leaves is the streaming result for its query
  block against the 16 key chunks, and chunk `n` of the resident keys, at (batch, key within the chunk, feature), is the
  key array at key `128 n + j`.
-/
import proofs.«174658_j70257075028315_2_alg».proof.Proof.Pieces
import proofs.«174658_j70257075028315_2_alg».proof.Proof.Spec

set_option maxRecDepth 16384

noncomputable section

namespace Cert.KernelIdeal.Flash

open Cert.KernelIdeal Cert.KernelIdeal.Gen Idealize.ShloMosaic Idealize.ShloMosaic.TcCoe Idealize.ShloMosaic.Tactic Idealize.ShloMosaic.ValueIdx
open Idealize.SL Idealize.SL.Sem Cert.LibWholeBuffer

variable {F : FTy → Type} [FloatOps F]

/-- WHAT ONE POINT LEAVES in its output block: the streaming result for its query block against the 16 key chunks. -/
theorem out_eq (c : Dev nD) (i : grid0.Coords) (arg1 : Memref sig .tc .vmem S8x64x512 .f32) (harg1 : arg1.IsWhole) (arg2 : Memref sig .tc .vmem S8x2048x512 .f32) (harg2 : arg2.IsWhole) (arg3 : Memref sig .tc .vmem S8x64x512 .f32) (harg3 : arg3.IsWhole) (arg4 : Memref sig .tc .vmem S8x64x1 .f32) (harg4 : arg4.IsWhole) (arg5 : Memref sig .tc .vmem S8x64x1 .f32) (harg5 : arg5.IsWhole) (arg6 : Memref sig .tc .vmem S8x64x512 .f32) (harg6 : arg6.IsWhole)
    (x0 : Vec F S8x64x512 .f32) (x1 : Vec F S8x2048x512 .f32) :
    out0_A_2 c i arg1 harg1 arg2 harg2 arg3 harg3 arg4 harg4 arg5 harg5 arg6 harg6 x0 x1 = result x0 (chunks arg2 (harg2.unread x1)) := by
  unfold out0_A_2
  rw [View.read_writes_junk_eq_canon]
  unfold kernelRun0_A
  dsimp only
  sl_unfold_words
  rw [View.canon_unit_zero off3_zero]
  rw [readAt_whole_unread arg1 harg1 x0 off3_zero]
  rw [View.writes_append, View.writes_append]
  have h := scratch_after (F := F) Variants.none c none i arg1 harg1 arg2 harg2 arg3 harg3 arg4 harg4 arg5 harg5 arg6 harg6 x0 (harg2.unread x1)
    (arg4.view.writes (Elt F) arg4.view.junk [(⟨U1, k0_pay1⟩ : View.Piece (Elt F) S8x64x1 .f32)])
    (arg5.view.writes (Elt F) arg5.view.junk [(⟨U1, k0_pay2⟩ : View.Piece (Elt F) S8x64x1 .f32)])
    (arg6.view.writes (Elt F) arg6.view.junk [(⟨U512, k0_pay3⟩ : View.Piece (Elt F) S8x64x512 .f32)])
    (readAt_whole_writes_cons arg4.view _ off3_zero _ _ []) (readAt_whole_writes_cons arg5.view _ off3_zero _ _ [])
    (readAt_whole_writes_cons arg6.view _ off3_zero _ _ []) k0_t1_loop.trips le_rfl
  unfold result
  rw [← trips_eq]
  exact congrArg₂ k0_pay5 h.2.2 h.2.1

/-- Chunk `n` of the resident keys at (batch, key within the chunk, feature) is the key array at the chunk's key. -/
theorem chunks_apply (arg2 : Memref sig .tc .vmem S8x2048x512 .f32) (harg2 : arg2.IsWhole) (x1 : Vec F S8x2048x512 .f32)
    (n : Fin 16) (b : Fin 8) (j : Fin 128) (d : Fin 512) :
    chunks arg2 (harg2.unread x1) n (ix3 b j d) = x1 (ix3 b (Cert.Attn.keyOf n j) d) := by
  unfold chunks chunkAt
  rw [View.readAt_apply, harg2.read_unread]
  refine congrArg x1 (funext fun a => Fin.ext ?_)
  have ho := k0_off1_eq (Fin.cast trips_eq.symm n)
  match a with
  | ⟨0, _⟩ =>
    show k0_off1 (Fin.cast trips_eq.symm n) 0 + 1 * b.val = b.val
    rw [ho]; show 0 + 1 * b.val = b.val; omega
  | ⟨1, _⟩ =>
    show k0_off1 (Fin.cast trips_eq.symm n) 1 + 1 * j.val = 128 * n.val + j.val
    rw [ho]; show 128 * n.val + 1 * j.val = 128 * n.val + j.val; omega
  | ⟨2, _⟩ =>
    show k0_off1 (Fin.cast trips_eq.symm n) 2 + 1 * d.val = d.val
    rw [ho]; show 0 + 1 * d.val = d.val; omega

end Cert.KernelIdeal.Flash

end
-- ==== Proof.LibUnitAxes.lean ====
/-
  Layout operations around a unit axis, read at an index written by coordinates.

  A rank-2 array `[a, b]` cast to `[a, b, 1]` keeps every element where it was (the new axis has one
  coordinate); a broadcast of `[a, b, 1]` to `[a, b, c]` repeats each element along the new last axis; a
  broadcast of `[1, a, b]` to `[m, a, b]` repeats the one slab along the new first axis.
-/
import Idealize.ShloMosaic.Lib.Pipeline.Value
import Idealize.ShloMosaic.Lib.ValueIdx

namespace Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j ⟨0, Nat.one_pos⟩) :=
  broadcastTo_apply x h _ _ (fun d => match d with
    | ⟨0, _⟩ => by
        show i.val = if a = 1 then 0 else i.val
        split
        · omega
        · rfl
    | ⟨1, _⟩ => by
        show j.val = if b = 1 then 0 else j.val
        split
        · omega
        · rfl
    | ⟨2, _⟩ => by
        show 0 = if (1 : ℕ) = 1 then 0 else k.val
        rw [if_pos rfl])

/-- A `[1, a, b]` array broadcast to `[m, a, b]` reads, at `(k, i, j)`, the operand at `(0, i, j)`. -/
theorem broadcastTo_1ab_mab_apply {m a b : ℕ} (x : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ x h (ix3 k i j) = x (ix3 ⟨0, Nat.one_pos⟩ i j) :=
  broadcastTo_apply x h _ _ (fun d => match d with
    | ⟨0, _⟩ => by
        show 0 = if (1 : ℕ) = 1 then 0 else k.val
        rw [if_pos rfl]
    | ⟨1, _⟩ => by
        show i.val = if a = 1 then 0 else i.val
        split
        · omega
        · rfl
    | ⟨2, _⟩ => by
        show j.val = if b = 1 then 0 else j.val
        split
        · omega
        · rfl)

end Idealize.ShloMosaic.ValueIdx
-- ==== Proof.LibIdeal.lean ====
import Idealize.ShloMosaic.PureOps.Ideal.Laws
import Idealize.ShloMosaic.Lib.IdealHost

/-!
# Small facts about the exact extended-real reading of float operations

Bit patterns of a few single-precision constants as extended reals; the 0/1 value of a disjunction of two
"not equal" tests; a maximum folded over two entries; a finite sum of real numbers embedded in the extended reals.
-/

noncomputable section

namespace Cert.LibIdeal

open Idealize.ShloMosaic
open scoped BigOperators

/-- The single-precision pattern `0xBF000000` is `-1/2`. -/
theorem ofBits_neg_half_f32 : Ideal.ofBits .f32 0xBF000000#32 = ((-1 / 2 : ℝ) : EReal) := by
  simp [Ideal.ofBits, Ideal.ieee, -EReal.coe_mul]; norm_num

/-- The single-precision pattern `0xFF800000` is `-∞`. -/
theorem ofBits_neg_inf_f32 : Ideal.ofBits .f32 0xFF800000#32 = (⊥ : EReal) := by
  simp [Ideal.ofBits, Ideal.ieee]

/-- Two "not equal to `z`" tests, or-ed and read as a float, give `1` when either holds and `0` otherwise. -/
theorem uitofp_ori_une (a b z : EReal) :
    (FloatOps.uitofp (F := Ideal) .f32 (IntOp.ori (FloatOps.cmpf (F := Ideal) (φ := .f32) .une a z)
      (FloatOps.cmpf (F := Ideal) (φ := .f32) .une b z)) : EReal) = if a ≠ z ∨ b ≠ z then 1 else 0 := by
  show (((IntOp.ori (Ideal.cmp .une a z) (Ideal.cmp .une b z)).toNat : ℝ) : EReal) = _
  unfold Ideal.cmp IntOp.ori
  by_cases ha : a = z <;> by_cases hb : b = z <;> simp [ha, hb]

/-- A maximum folded over two entries from `b`. -/
theorem fold_max_fin2 (b : EReal) (f : Fin 2 → EReal) :
    (Finset.univ : Finset (Fin 2)).fold max b f = max b (max (f 0) (f 1)) := by
  apply le_antisymm
  · refine (Finset.fold_max_le _).mpr ⟨le_max_left _ _, fun k _ => ?_⟩
    fin_cases k
    · exact le_max_of_le_right (le_max_left _ _)
    · exact le_max_of_le_right (le_max_right _ _)
  · refine max_le ((Finset.le_fold_max _).mpr (Or.inl le_rfl)) (max_le ?_ ?_)
    · exact (Finset.le_fold_max _).mpr (Or.inr ⟨0, Finset.mem_univ _, le_rfl⟩)
    · exact (Finset.le_fold_max _).mpr (Or.inr ⟨1, Finset.mem_univ _, le_rfl⟩)

/-- A finite sum of real numbers, embedded in the extended reals, is the sum of the embedded terms. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.LibIdeal

end
-- ==== Proof.TripAt.lean ====
/-
  The streaming kernel's chunk update, read one element at a time over the extended reals.

  A grid point holds 64 query rows for each of 8 batches. Its state is, per row, a running maximum `m`, a running
  denominator `l` and, per feature, a running numerator `a`. Visiting a chunk `X` of 128 keys computes the scores
  `s j = ∑ d, x0 d * X j d` of the row against the chunk's keys, raises the maximum to `m' = max m (max_j s j)`, and
  replaces `l` by `exp (m - m') * l + ∑ j, exp (s j - m')` and `a d` by `exp (m - m') * a d + ∑ j, exp (s j - m') * X j d`.
  The state starts at minus infinity, zero and zero, and the stored result is `a d / l`. Each statement below reads one of
  these vector terms at the element of batch `b`, row `r` and key `j`, feature `d` or the unit coordinate `u`.
-/
import proofs.«174658_j70257075028315_2_alg».proof.Proof.Gen.KernelIdeal.Skeleton
import proofs.«174658_j70257075028315_2_alg».proof.Proof.LibUnitAxes
import proofs.«174658_j70257075028315_2_alg».proof.Proof.LibIdeal
import Idealize.ShloMosaic.Lib.Pipeline.Value
import Idealize.ShloMosaic.Lib.ValueIdx
import Idealize.ShloMosaic.PureOps.Ideal.Laws

noncomputable section

namespace Cert.KernelIdeal.Flash

open Cert.KernelIdeal Cert.KernelIdeal.Gen Idealize.ShloMosaic Idealize.ShloMosaic.ValueIdx
open scoped BigOperators

/-! ## The starting state -/

/-- The running maximum starts at minus infinity. -/
theorem pay1_at (b : Fin 8) (r : Fin 64) (u : Fin 1) : k0_pay1 (F := Ideal) (ix3 b r u) = ⊥ :=
  (congrFun (shapeCast_self (broadcast S8x64x1 (Scalar.ofBits (F := Ideal) .f32 0xFF800000#32))
    Facts₀.shapeCasts_S8x64x1_S8x64x1) (ix3 b r u)).trans Cert.LibIdeal.ofBits_neg_inf_f32

/-- The running denominator starts at zero. -/
theorem pay2_at (b : Fin 8) (r : Fin 64) (u : Fin 1) : k0_pay2 (F := Ideal) (ix3 b r u) = 0 :=
  (congrFun (shapeCast_self (broadcast S8x64x1 (Scalar.ofBits (F := Ideal) .f32 0x00000000#32))
    Facts₀.shapeCasts_S8x64x1_S8x64x1) (ix3 b r u)).trans Ideal.ofBits_zero_f32

/-- The running numerator starts at zero. -/
theorem pay3_at (b : Fin 8) (r : Fin 64) (d : Fin 512) : k0_pay3 (F := Ideal) (ix3 b r d) = 0 :=
  (congrFun (shapeCast_self (broadcast S8x64x512 (Scalar.ofBits (F := Ideal) .f32 0x00000000#32))
    Facts₀.shapeCasts_S8x64x512_S8x64x512) (ix3 b r d)).trans Ideal.ofBits_zero_f32

/-! ## The stored maximum and the result -/

/-- The maximum is stored as it is. -/
theorem pay4_at (w : FVec Ideal S8x64x1 .f32) (b : Fin 8) (r : Fin 64) (u : Fin 1) :
    k0_pay4 w (ix3 b r u) = w (ix3 b r u) :=
  congrFun (shapeCast_self w Facts₀.shapeCasts_S8x64x1_S8x64x1) (ix3 b r u)

/-- The result is the numerator over the row's denominator. -/
theorem pay5_at (a : Vec Ideal S8x64x512 .f32) (l : Vec Ideal S8x64x1 .f32) (b : Fin 8) (r : Fin 64) (d : Fin 512) :
    k0_pay5 a l (ix3 b r d) = Ideal.div (a (ix3 b r d)) (l (ix3 b r ⟨0, Nat.one_pos⟩)) :=
  congrArg (Ideal.div (a (ix3 b r d))) (broadcastTo_ab1_abc_apply l Facts₀.broadcasts_S8x64x1_S8x64x512 b r d)

/-! ## The chunk's maximum, the rescaling factor and the weights -/

/-- Inserting the key coordinate into the reduced index `(b, r)` gives `(b, r, j)`. -/
theorem lift_ix2 (b : Fin 8) (r : Fin 64) (j : Fin 128) :
    Shape.Reduces.lift Facts₀.reduces_S8x64x128_S8x64 (ix2 b r) j = ix3 b r j :=
  funext fun a => Fin.ext (by
    match a with
    | ⟨0, _⟩ => rfl
    | ⟨1, _⟩ => rfl
    | ⟨2, _⟩ => rfl)

/-- The new maximum is the larger of the old one and the largest score of the chunk. -/
theorem pay7_at (x0 : Vec Ideal S8x64x512 .f32) (X : Vec Ideal S8x128x512 .f32) (m : Vec Ideal S8x64x1 .f32)
    (b : Fin 8) (r : Fin 64) (u : Fin 1) :
    k0_pay7 x0 X m (ix3 b r u)
      = max (m (ix3 b r u)) ((Finset.univ : Finset (Fin 128)).fold max ⊥ (fun j => k0_pay6 x0 X (ix3 b r j))) := by
  refine congrArg (max (m (ix3 b r u))) ?_
  refine (shapeCast_ab_ab1_apply _ Facts₀.shapeCasts_S8x64_S8x64x1 b r u).trans ?_
  refine (Ideal.multiReduction_maximumf_single (k0_pay6 x0 X) 0xFF800000#32 Facts₀.reduces_S8x64x128_S8x64
    (.inl rfl) rfl (ix2 b r)).trans ?_
  have e : (k0_pay6 x0 X ∘ Shape.Reduces.lift Facts₀.reduces_S8x64x128_S8x64 (ix2 b r))
      = fun j : Fin 128 => k0_pay6 x0 X (ix3 b r j) := funext fun j => congrArg (k0_pay6 x0 X) (lift_ix2 b r j)
  rw [e]
  exact congrArg (fun z => (Finset.univ : Finset (Fin 128)).fold max z (fun j => k0_pay6 x0 X (ix3 b r j)))
    Cert.LibIdeal.ofBits_neg_inf_f32

/-- The factor that rescales the old state: the exponential of the old maximum minus the new one. -/
theorem pay8_at (x0 : Vec Ideal S8x64x512 .f32) (X : Vec Ideal S8x128x512 .f32) (m : Vec Ideal S8x64x1 .f32)
    (b : Fin 8) (r : Fin 64) (u : Fin 1) :
    k0_pay8 x0 X m (ix3 b r u) = Ideal.exp (m (ix3 b r u) - k0_pay7 x0 X m (ix3 b r u)) := rfl

/-- The weight of key `j`: the exponential of its score minus the new maximum. -/
theorem pay9_at (x0 : Vec Ideal S8x64x512 .f32) (X : Vec Ideal S8x128x512 .f32) (m : Vec Ideal S8x64x1 .f32)
    (b : Fin 8) (r : Fin 64) (j : Fin 128) :
    k0_pay9 x0 X m (ix3 b r j)
      = Ideal.exp (k0_pay6 x0 X (ix3 b r j) - k0_pay7 x0 X m (ix3 b r ⟨0, Nat.one_pos⟩)) :=
  congrArg (fun z => Ideal.exp (k0_pay6 x0 X (ix3 b r j) - z))
    (broadcastTo_ab1_abc_apply (k0_pay7 x0 X m) Facts₀.broadcasts_S8x64x1_S8x64x128 b r j)

/-- The new denominator: the old one rescaled, plus the chunk's weights. -/
theorem pay10_at (x0 : Vec Ideal S8x64x512 .f32) (X : Vec Ideal S8x128x512 .f32) (m l : Vec Ideal S8x64x1 .f32)
    (b : Fin 8) (r : Fin 64) (u : Fin 1) :
    k0_pay10 x0 X m l (ix3 b r u)
      = Ideal.exp (m (ix3 b r u) - k0_pay7 x0 X m (ix3 b r u)) * l (ix3 b r u)
        + ∑ j : Fin 128, k0_pay9 x0 X m (ix3 b r j) := by
  unfold k0_pay10
  refine (congrFun (shapeCast_self _ Facts₀.shapeCasts_S8x64x1_S8x64x1) (ix3 b r u)).trans ?_
  refine congrArg (Ideal.exp (m (ix3 b r u) - k0_pay7 x0 X m (ix3 b r u)) * l (ix3 b r u) + ·) ?_
  refine (shapeCast_ab_ab1_apply _ Facts₀.shapeCasts_S8x64_S8x64x1 b r u).trans ?_
  refine (Ideal.multiReduction_add_single (k0_pay9 x0 X m) 0x00000000#32 Facts₀.reduces_S8x64x128_S8x64
    (.inl rfl) rfl (ix2 b r)).trans ?_
  exact Finset.sum_congr rfl fun j _ => congrArg (k0_pay9 x0 X m) (lift_ix2 b r j)

/-! ## The scores -/

/-- The dimension numbers of the score product: batch axis 0, contraction over the features. -/
abbrev dotQK : DotDims S8x64x512 S8x128x512 S8x64x128 := dot_S8x64x512_S8x128x512_S8x64x128_2_2_1_1_0_0

theorem lhsQK_0 (i : S8x64x128.Idx) (q : dotQK.contr.Idx) : (dotQK.lhsIdx i q 0).val = (i 0).val := by
  unfold DotDims.lhsIdx
  rw [dif_pos (show (0 : Fin S8x64x512.rank) ∈ dotQK.lhsBatch by decide)]
  rfl
theorem lhsQK_1 (i : S8x64x128.Idx) (q : dotQK.contr.Idx) : (dotQK.lhsIdx i q 1).val = (i 1).val := by
  unfold DotDims.lhsIdx
  rw [dif_neg (show ¬(1 : Fin S8x64x512.rank) ∈ dotQK.lhsBatch by decide),
    dif_pos (show (1 : Fin S8x64x512.rank) ∈ dotQK.lhsNonContracting by decide)]
  rfl
theorem lhsQK_2 (i : S8x64x128.Idx) (q : dotQK.contr.Idx) : (dotQK.lhsIdx i q 2).val = (q ⟨0, by decide⟩).val :=
  dotQK.lhsIdx_val_of_single rfl i q
theorem rhsQK_0 (i : S8x64x128.Idx) (q : dotQK.contr.Idx) : (dotQK.rhsIdx i q 0).val = (i 0).val := by
  unfold DotDims.rhsIdx
  rw [dif_pos (show (0 : Fin S8x128x512.rank) ∈ dotQK.rhsBatch by decide)]
  rfl
theorem rhsQK_1 (i : S8x64x128.Idx) (q : dotQK.contr.Idx) : (dotQK.rhsIdx i q 1).val = (i 2).val := by
  unfold DotDims.rhsIdx
  rw [dif_neg (show ¬(1 : Fin S8x128x512.rank) ∈ dotQK.rhsBatch by decide),
    dif_pos (show (1 : Fin S8x128x512.rank) ∈ dotQK.rhsNonContracting by decide)]
  rfl
theorem rhsQK_2 (i : S8x64x128.Idx) (q : dotQK.contr.Idx) : (dotQK.rhsIdx i q 2).val = (q ⟨0, by decide⟩).val :=
  dotQK.rhsIdx_val_of_single rfl i q

/-- The score of row `r` against key `j` of the chunk: the inner product over the 512 features. -/
theorem pay6_at (x0 : Vec Ideal S8x64x512 .f32) (X : Vec Ideal S8x128x512 .f32) (b : Fin 8) (r : Fin 64) (j : Fin 128) :
    k0_pay6 x0 X (ix3 b r j) = ∑ d : Fin 512, x0 (ix3 b r d) * X (ix3 b j d) := by
  refine (Ideal.matmul_constant_zero_apply (φ₁ := .f32) (φ₂ := .f32) dotQK (some .fp32) x0 X (ix3 b r j)).trans ?_
  rw [← Equiv.sum_comp (contrEquiv1 dotQK 512 rfl rfl).symm]
  refine Finset.sum_congr rfl fun k _ => ?_
  have hk := contrEquiv1_symm_val dotQK 512 rfl rfl k
  have el : dotQK.lhsIdx (ix3 b r j) ((contrEquiv1 dotQK 512 rfl rfl).symm k) = ix3 b r k :=
    funext fun a => Fin.ext (by
      match a with
      | ⟨0, _⟩ => exact lhsQK_0 _ _
      | ⟨1, _⟩ => exact lhsQK_1 _ _
      | ⟨2, _⟩ => exact (lhsQK_2 _ _).trans hk)
  have er : dotQK.rhsIdx (ix3 b r j) ((contrEquiv1 dotQK 512 rfl rfl).symm k) = ix3 b j k :=
    funext fun a => Fin.ext (by
      match a with
      | ⟨0, _⟩ => exact rhsQK_0 _ _
      | ⟨1, _⟩ => exact rhsQK_1 _ _
      | ⟨2, _⟩ => exact (rhsQK_2 _ _).trans hk)
  rw [el, er]

/-! ## The numerator -/

/-- The dimension numbers of the weighted sum of the keys: batch axis 0, contraction over the chunk's keys. -/
abbrev dotPV : DotDims S8x64x128 S8x128x512 S8x64x512 := dot_S8x64x128_S8x128x512_S8x64x512_2_1_1_2_0_0

theorem lhsPV_0 (i : S8x64x512.Idx) (q : dotPV.contr.Idx) : (dotPV.lhsIdx i q 0).val = (i 0).val := by
  unfold DotDims.lhsIdx
  rw [dif_pos (show (0 : Fin S8x64x128.rank) ∈ dotPV.lhsBatch by decide)]
  rfl
theorem lhsPV_1 (i : S8x64x512.Idx) (q : dotPV.contr.Idx) : (dotPV.lhsIdx i q 1).val = (i 1).val := by
  unfold DotDims.lhsIdx
  rw [dif_neg (show ¬(1 : Fin S8x64x128.rank) ∈ dotPV.lhsBatch by decide),
    dif_pos (show (1 : Fin S8x64x128.rank) ∈ dotPV.lhsNonContracting by decide)]
  rfl
theorem lhsPV_2 (i : S8x64x512.Idx) (q : dotPV.contr.Idx) : (dotPV.lhsIdx i q 2).val = (q ⟨0, by decide⟩).val :=
  dotPV.lhsIdx_val_of_single rfl i q
theorem rhsPV_0 (i : S8x64x512.Idx) (q : dotPV.contr.Idx) : (dotPV.rhsIdx i q 0).val = (i 0).val := by
  unfold DotDims.rhsIdx
  rw [dif_pos (show (0 : Fin S8x128x512.rank) ∈ dotPV.rhsBatch by decide)]
  rfl
theorem rhsPV_1 (i : S8x64x512.Idx) (q : dotPV.contr.Idx) : (dotPV.rhsIdx i q 1).val = (q ⟨0, by decide⟩).val :=
  dotPV.rhsIdx_val_of_single rfl i q
theorem rhsPV_2 (i : S8x64x512.Idx) (q : dotPV.contr.Idx) : (dotPV.rhsIdx i q 2).val = (i 2).val := by
  unfold DotDims.rhsIdx
  rw [dif_neg (show ¬(2 : Fin S8x128x512.rank) ∈ dotPV.rhsBatch by decide),
    dif_pos (show (2 : Fin S8x128x512.rank) ∈ dotPV.rhsNonContracting by decide)]
  rfl

/-- The weighted sum of the chunk's keys, feature `d`: the sum over the keys of weight times key entry. The narrowing
    of the two operands to sixteen bits changes nothing over the extended reals. -/
theorem pv_at (P : FVec Ideal S8x64x128 .f32) (X : Vec Ideal S8x128x512 .f32) (b : Fin 8) (r : Fin 64) (d : Fin 512) :
    FloatOps.matmul dotPV none (truncf .bf16 P Facts₀.bitsLt_bf16_f32) (truncf .bf16 X Facts₀.bitsLt_bf16_f32)
        (constant (F := Ideal) S8x64x512 .f32 0x00000000#32) (ix3 b r d)
      = ∑ j : Fin 128, P (ix3 b r j) * X (ix3 b j d) := by
  refine (Ideal.matmul_constant_zero_apply (φ₁ := .bf16) (φ₂ := .bf16) dotPV none
    (truncf .bf16 P Facts₀.bitsLt_bf16_f32) (truncf .bf16 X Facts₀.bitsLt_bf16_f32) (ix3 b r d)).trans ?_
  rw [← Equiv.sum_comp (contrEquiv1 dotPV 128 rfl rfl).symm]
  refine Finset.sum_congr rfl fun k _ => ?_
  have hk := contrEquiv1_symm_val dotPV 128 rfl rfl k
  have el : dotPV.lhsIdx (ix3 b r d) ((contrEquiv1 dotPV 128 rfl rfl).symm k) = ix3 b r k :=
    funext fun a => Fin.ext (by
      match a with
      | ⟨0, _⟩ => exact lhsPV_0 _ _
      | ⟨1, _⟩ => exact lhsPV_1 _ _
      | ⟨2, _⟩ => exact (lhsPV_2 _ _).trans hk)
  have er : dotPV.rhsIdx (ix3 b r d) ((contrEquiv1 dotPV 128 rfl rfl).symm k) = ix3 b k d :=
    funext fun a => Fin.ext (by
      match a with
      | ⟨0, _⟩ => exact rhsPV_0 _ _
      | ⟨1, _⟩ => exact (rhsPV_1 _ _).trans hk
      | ⟨2, _⟩ => exact rhsPV_2 _ _)
  rw [el, er]
  rfl

/-- The new numerator: the old one rescaled, plus the chunk's weighted keys. -/
theorem pay11_at (x0 : Vec Ideal S8x64x512 .f32) (X : Vec Ideal S8x128x512 .f32) (m : Vec Ideal S8x64x1 .f32)
    (a : Vec Ideal S8x64x512 .f32) (b : Fin 8) (r : Fin 64) (d : Fin 512) :
    k0_pay11 x0 X m a (ix3 b r d)
      = Ideal.exp (m (ix3 b r ⟨0, Nat.one_pos⟩) - k0_pay7 x0 X m (ix3 b r ⟨0, Nat.one_pos⟩)) * a (ix3 b r d)
        + ∑ j : Fin 128, k0_pay9 x0 X m (ix3 b r j) * X (ix3 b j d) := by
  unfold k0_pay11
  refine (congrFun (shapeCast_self _ Facts₀.shapeCasts_S8x64x512_S8x64x512) (ix3 b r d)).trans ?_
  refine (addf_apply (φ := .f32) _ _ (ix3 b r d)).trans ?_
  refine congrArg₂ (· + ·) ?_ (pv_at (k0_pay9 x0 X m) X b r d)
  exact congrArg (· * a (ix3 b r d))
    (broadcastTo_ab1_abc_apply (k0_pay8 x0 X m) Facts₀.broadcasts_S8x64x1_S8x64x512 b r d)

end Cert.KernelIdeal.Flash

end
-- ==== Proof.StateAt.lean ====
/-
  The streaming kernel's carried state, read one row at a time, is the row-level recursion of the streaming arrangement.

  Fix a batch `b` and a query row `r` of the block, and let `s k = ∑ d, x0 (b, r, d) * K b k d` be the row's score
  against key `k` of all 2048 keys. When chunk `n` of the key family holds the keys `128 n … 128 n + 127`, the
  kernel's running maximum, denominator and numerator after `n` chunks are, at that row, the running maximum of `s`, the
  running sum of `exp (s k - m)` and, at feature `d`, the running sum of `exp (s k - m) * K b k d` over the keys seen;
  and the stored result is the streaming arrangement's quotient for the row. By induction on the number of chunks: one
  chunk's update read at the row is one step of the row-level recursion.
-/
import proofs.«174658_j70257075028315_2_alg».proof.Proof.TripAt
import proofs.«174658_j70257075028315_2_alg».proof.Proof.KState
import proofs.«174658_j70257075028315_2_alg».proof.Proof.Spec

noncomputable section

namespace Cert.KernelIdeal.Flash

open Cert.KernelIdeal Cert.KernelIdeal.Gen Idealize.ShloMosaic Idealize.ShloMosaic.ValueIdx Cert.Attn
open scoped BigOperators

/-- One chunk's update at a row, over abstract scores: if the old state at the row is `(M, L, A d)`, the chunk's scores
    are `s` at the chunk's keys and the chunk's entries are `K` at them, the new state is one step of the recursion. -/
theorem step_at (x0 : Vec Ideal S8x64x512 .f32) (X : Vec Ideal S8x128x512 .f32) (m l : Vec Ideal S8x64x1 .f32)
    (a : Vec Ideal S8x64x512 .f32) (b : Fin 8) (r : Fin 64) (c : Fin 16) (s : Fin 2048 → EReal)
    (Kb : Fin 2048 → Fin 512 → EReal) (M L : EReal)
    (hs : ∀ j : Fin 128, k0_pay6 x0 X (ix3 b r j) = s (keyOf c j))
    (hK : ∀ (j : Fin 128) (d : Fin 512), X (ix3 b j d) = Kb (keyOf c j) d)
    (hm : ∀ u : Fin 1, m (ix3 b r u) = M) (hl : ∀ u : Fin 1, l (ix3 b r u) = L) :
    (∀ u : Fin 1, k0_pay7 x0 X m (ix3 b r u) = max M (chunkMax s c))
    ∧ (∀ u : Fin 1, k0_pay10 x0 X m l (ix3 b r u)
        = Ideal.exp (M - max M (chunkMax s c)) * L + ∑ j : Fin 128, Ideal.exp (s (keyOf c j) - max M (chunkMax s c)))
    ∧ (∀ (d : Fin 512) (A : EReal), a (ix3 b r d) = A → k0_pay11 x0 X m a (ix3 b r d)
        = Ideal.exp (M - max M (chunkMax s c)) * A
          + ∑ j : Fin 128, Ideal.exp (s (keyOf c j) - max M (chunkMax s c)) * Kb (keyOf c j) d) := by
  have h7 : ∀ u : Fin 1, k0_pay7 x0 X m (ix3 b r u) = max M (chunkMax s c) := by
    intro u
    rw [pay7_at, hm u]
    have e : (fun j : Fin 128 => k0_pay6 x0 X (ix3 b r j)) = fun j => s (keyOf c j) := funext hs
    rw [e]
    rfl
  have h9 : ∀ j : Fin 128, k0_pay9 x0 X m (ix3 b r j) = Ideal.exp (s (keyOf c j) - max M (chunkMax s c)) := by
    intro j
    rw [pay9_at, hs j, h7]
  refine ⟨h7, ?_, ?_⟩
  · intro u
    rw [pay10_at, hm u, h7 u, hl u]
    exact congrArg (_ + ·) (Finset.sum_congr rfl fun j _ => h9 j)
  · intro d A hA
    rw [pay11_at, hm, h7, hA]
    exact congrArg (_ + ·) (Finset.sum_congr rfl fun j _ => by rw [h9 j, hK j d])

/-- The state after `n` chunks at row `r` of batch `b`: the row-level running maximum, denominator and numerator. -/
theorem state_at (x0 : Vec Ideal S8x64x512 .f32) (Xc : Fin 16 → Vec Ideal S8x128x512 .f32)
    (K : Fin 8 → Fin 2048 → Fin 512 → EReal)
    (hX : ∀ (n : Fin 16) (b : Fin 8) (j : Fin 128) (d : Fin 512), Xc n (ix3 b j d) = K b (keyOf n j) d)
    (b : Fin 8) (r : Fin 64) (n : ℕ) (hn : n ≤ 16) :
    (∀ u : Fin 1, stM x0 Xc n (ix3 b r u) = runMax (fun k => ∑ d : Fin 512, x0 (ix3 b r d) * K b k d) n)
    ∧ (∀ u : Fin 1, stL x0 Xc n (ix3 b r u) = runDen (fun k => ∑ d : Fin 512, x0 (ix3 b r d) * K b k d) n)
    ∧ (∀ d : Fin 512, stA x0 Xc n (ix3 b r d)
        = runNum (fun k => ∑ d' : Fin 512, x0 (ix3 b r d') * K b k d') (fun k => K b k d) n) := by
  induction n with
  | zero => exact ⟨fun u => pay1_at b r u, fun u => pay2_at b r u, fun d => pay3_at b r d⟩
  | succ n ih =>
    have h : n < 16 := hn
    obtain ⟨ihM, ihL, ihA⟩ := ih (Nat.le_of_lt h)
    have hs : ∀ j : Fin 128, k0_pay6 x0 (Xc ⟨n, h⟩) (ix3 b r j)
        = (fun k => ∑ d : Fin 512, x0 (ix3 b r d) * K b k d) (keyOf ⟨n, h⟩ j) := fun j =>
      (pay6_at x0 (Xc ⟨n, h⟩) b r j).trans (Finset.sum_congr rfl fun d _ => by rw [hX])
    obtain ⟨sM, sL, sA⟩ := step_at x0 (Xc ⟨n, h⟩) (stM x0 Xc n) (stL x0 Xc n) (stA x0 Xc n) b r ⟨n, h⟩
      (fun k => ∑ d : Fin 512, x0 (ix3 b r d) * K b k d) (K b) _ _ hs (fun j d => hX ⟨n, h⟩ b j d) ihM ihL
    have eM : runMax (fun k => ∑ d : Fin 512, x0 (ix3 b r d) * K b k d) (n + 1) = _ := runMax_succ _ ⟨n, h⟩
    refine ⟨fun u => ?_, fun u => ?_, fun d => ?_⟩
    · rw [stM_succ x0 Xc ⟨n, h⟩, pay4_at, eM]
      exact sM u
    · rw [stL_succ x0 Xc ⟨n, h⟩, runDen_succ _ ⟨n, h⟩, eM]
      exact sL u
    · rw [stA_succ x0 Xc ⟨n, h⟩, runNum_succ _ _ ⟨n, h⟩, eM]
      exact sA d _ (ihA d)

/-- The stored result at row `r` of batch `b`, feature `d`: the streaming arrangement's quotient for the row. -/
theorem result_at (x0 : Vec Ideal S8x64x512 .f32) (Xc : Fin 16 → Vec Ideal S8x128x512 .f32)
    (K : Fin 8 → Fin 2048 → Fin 512 → EReal)
    (hX : ∀ (n : Fin 16) (b : Fin 8) (j : Fin 128) (d : Fin 512), Xc n (ix3 b j d) = K b (keyOf n j) d)
    (b : Fin 8) (r : Fin 64) (d : Fin 512) :
    result x0 Xc (ix3 b r d)
      = online (fun k => ∑ d' : Fin 512, x0 (ix3 b r d') * K b k d') (fun k => K b k d) := by
  obtain ⟨_, hL, hA⟩ := state_at x0 Xc K hX b r 16 le_rfl
  unfold result online
  rw [pay5_at, hA d, hL]

end Cert.KernelIdeal.Flash

end
-- ==== Proof.ArrayValue.lean ====
/-
  The streaming kernel's result array. Grid point `t` (32 points) holds query rows `64 t … 64 t + 63` of every batch and
  the whole key array; its output block is, at (batch b, row r, feature d), the streaming softmax-attention of query row
  `64 t + r` of batch `b` against all 2048 keys, column `d`. The 32 output blocks tile the array (the block holding row `q`
  is block `q / 64`), so after the run the array is the streaming arrangement of the specification, entry by entry.
-/
import proofs.«174658_j70257075028315_2_alg».proof.Proof.Point
import proofs.«174658_j70257075028315_2_alg».proof.Proof.StateAt
import proofs.«174658_j70257075028315_2_alg».proof.Proof.Gen.KernelIdeal.Value

set_option maxRecDepth 16384

noncomputable section

namespace Cert.KernelIdeal.Flash

open Cert.KernelIdeal Cert.KernelIdeal.Gen Cert.KernelIdeal.Value Cert.Attn
open Idealize.ShloMosaic Idealize.ShloMosaic.TcCoe Idealize.ShloMosaic.ValueIdx Idealize.SL.Sem
open Idealize.ShloMosaic.Pipeline (Dat)
open scoped BigOperators

/-- A query block that holds rows `q0 … q0 + 63` of `Q`, against the resident keys `K`: the point's result at
    (b, r, d) is the streaming arrangement's entry (b, q0 + r, d). -/
theorem point_eq (x0 : Vec Ideal S8x64x512 .f32) (arg2 : Memref sig .tc .vmem S8x2048x512 .f32) (harg2 : arg2.IsWhole)
    (x1 : Vec Ideal S8x2048x512 .f32) (Q K : SArr.Idx → EReal) (q0 : ℕ) (hq : q0 + 64 ≤ 2048)
    (h0 : ∀ (b : Fin 8) (r : Fin 64) (d : Fin 512), x0 (ix3 b r d) = Q (ix3 b (⟨q0 + r.val, by have := r.isLt; omega⟩ : Fin 2048) d))
    (h1 : ∀ z, x1 z = K z) (b : Fin 8) (r : Fin 64) (d : Fin 512) :
    result x0 (chunks arg2 (harg2.unread x1)) (ix3 b r d)
      = onlineArr Q K (ix3 b (⟨q0 + r.val, by have := r.isLt; omega⟩ : Fin 2048) d) := by
  rw [result_at x0 _ (fun b k d => K (ix3 b k d)) (fun n b j d => (chunks_apply arg2 harg2 x1 n b j d).trans (h1 _)) b r d]
  unfold onlineArr score valCol
  simp only [h0]

variable (m : (ℓ : Loc nD τ sig) → Buf (Elt Ideal) ℓ) (ρ : Dev nD → PrngReg)

/-- The printed index maps over the 32 grid points: the query and output blocks move along the row axis with the
    point, the key block stays. -/
theorem idx_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

theorem N_eq : cfg0.N = 32 := by decide +kernel

/-- WHAT POINT `t` WRITES BACK is block `t` of the streaming arrangement of the argument arrays. -/
theorem flushed_eq (c : Dev nD) (t : Fin cfg0.N) :
    (dats m 0 c).flushed 2 t
      = ((cfg0.win 2).blk t).view.read (Elt Ideal) (onlineArr (V m c main_arg0) (V m c main_arg1)) := by
  rw [flushed2_A, out_eq]
  obtain ⟨e00, e01, e02, e10, e11, e12, e20, e21, e22⟩ := idx_facts t
  have ht : t.val < 32 := N_eq ▸ t.isLt
  funext y
  obtain ⟨b, r, d, rfl⟩ : ∃ (b : Fin 8) (r : Fin 64) (d : Fin 512), y = ix3 b r d := ⟨y 0, y 1, y 2, eq_ix3 y⟩
  show result (iblk m c 0 t) (chunks (ms0_1 t) ((hs0_1 t).unread (iblk m c 1 t))) (ix3 b r d)
    = onlineArr (V m c main_arg0) (V m c main_arg1) (((cfg0.win 2).blk t).view.emb (ix3 b r d))
  have hr := r.isLt
  have hemb : ((cfg0.win 2).blk t).view.emb (ix3 b r d) = ix3 b (⟨64 * t.val + r.val, by omega⟩ : Fin 2048) d := by
    funext a; apply Fin.ext
    match a with
    | ⟨0, _⟩ => show win0_2.index t (0 : Fin 3) * 8 + 1 * b.val = b.val; omega
    | ⟨1, _⟩ => show win0_2.index t (1 : Fin 3) * 64 + 1 * r.val = 64 * t.val + r.val; omega
    | ⟨2, _⟩ => show win0_2.index t (2 : Fin 3) * 512 + 1 * d.val = d.val; omega
  rw [hemb]
  refine point_eq _ _ _ _ (V m c main_arg0) (V m c main_arg1) (64 * t.val) (by omega) ?_ ?_ b r d
  · intro b r d
    have hr := r.isLt
    show V m c main_arg0 (((cfg0.win 0).blk t).view.emb (ix3 b r d)) = _
    refine congrArg _ (funext fun a => Fin.ext ?_)
    match a with
    | ⟨0, _⟩ => show win0_0.index t (0 : Fin 3) * 8 + 1 * b.val = b.val; omega
    | ⟨1, _⟩ => show win0_0.index t (1 : Fin 3) * 64 + 1 * r.val = 64 * t.val + r.val; omega
    | ⟨2, _⟩ => show win0_0.index t (2 : Fin 3) * 512 + 1 * d.val = d.val; omega
  · intro z
    show V m c main_arg1 (((cfg0.win 1).blk t).view.emb z) = V m c main_arg1 z
    refine congrArg _ (funext fun a => Fin.ext ?_)
    match a with
    | ⟨0, _⟩ => show win0_1.index t (0 : Fin 3) * 8 + 1 * (z 0).val = (z 0).val; omega
    | ⟨1, _⟩ => show win0_1.index t (1 : Fin 3) * 2048 + 1 * (z 1).val = (z 1).val; omega
    | ⟨2, _⟩ => show win0_1.index t (2 : Fin 3) * 512 + 1 * (z 2).val = (z 2).val; omega

/-- An index of the array is in point `t`'s output block iff each coordinate is in the block's range on its axis. -/
theorem mem_blk (t : Fin cfg0.N) (i : S8x2048x512.Idx) :
    i ∈ ((cfg0.win 2).blk t).view.set ↔ ∀ a : Fin 3, win0_2.index t a * S8x64x512.size a ≤ (i a).val ∧ (i a).val < win0_2.index t a * S8x64x512.size a + S8x64x512.size a := by
  show i ∈ ((View.whole main_v0).slice (win0_2.rect t)).set ↔ _
  rw [View.set_slice_whole, Rect.mem_set_unit]
  exact Iff.rfl

/-- Every index of the array is in the output block of the point that holds its row. -/
theorem cover (i : S8x2048x512.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 512 := (i 2).isLt
  have hlt : (i 1).val / 64 < cfg0.N := by rw [N_eq]; omega
  obtain ⟨-, -, -, -, -, -, e20, e21, e22⟩ := idx_facts ⟨(i 1).val / 64, hlt⟩
  refine ⟨⟨(i 1).val / 64, hlt⟩, flush0_2 _, ?_⟩
  rw [mem_blk]
  intro a
  match a with
  | ⟨0, _⟩ =>
    show win0_2.index ⟨(i 1).val / 64, hlt⟩ (0 : Fin 3) * 8 ≤ (i 0).val ∧ (i 0).val < win0_2.index ⟨(i 1).val / 64, hlt⟩ (0 : Fin 3) * 8 + 8
    omega
  | ⟨1, _⟩ =>
    show win0_2.index ⟨(i 1).val / 64, hlt⟩ (1 : Fin 3) * 64 ≤ (i 1).val ∧ (i 1).val < win0_2.index ⟨(i 1).val / 64, hlt⟩ (1 : Fin 3) * 64 + 64
    have e : win0_2.index ⟨(i 1).val / 64, hlt⟩ (1 : Fin 3) = (i 1).val / 64 := e21
    omega
  | ⟨2, _⟩ =>
    show win0_2.index ⟨(i 1).val / 64, hlt⟩ (2 : Fin 3) * 512 ≤ (i 2).val ∧ (i 2).val < win0_2.index ⟨(i 1).val / 64, hlt⟩ (2 : Fin 3) * 512 + 512
    omega

/-- THE ARRAY after the run: the streaming arrangement of the two argument arrays. -/
theorem final (c : Dev nD) :
    (dats m 0 c).arrAt 2 cfg0.N = onlineArr (m ((c : Thread nD τ).loc main_arg0)) (m ((c : Thread nD τ).loc main_arg1)) :=
  (dats m 0 c).arrAt_eq_of_cover 2 _ (fun t _ => flushed_eq m c t) cover

/-- The kernel's run, read: every weakly fair execution ends with the result array at the streaming arrangement of the
    arguments and the arguments unchanged. -/
theorem run : θ_run defs (onTc (τ := τ) (main (F := Ideal))) ⟨m, fun _ => 0, ρ⟩ fun r => ∀ c : Dev nD,
      r.2.mem ((c : Thread nD τ).loc main_v0) = onlineArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Flash

end
-- ==== Proof.RefAt.lean ====
/-
  The plain arrangement, read off the reference program one operation at a time.

  At the output entry of batch `b`, query row `q` and column `d` the reference forms the scores of row `q` against
  the 2048 keys (inner products over the 512 features), takes their maximum from minus infinity and once more against minus
  infinity, subtracts it, exponentiates, divides by the sum (taken from zero) of the exponentials over the keys and
  contracts the weights with column `d` of the keys. Each stage is read at its coordinates; the last line is the plain
  arrangement of the specification, entry by entry.
-/
import proofs.«174658_j70257075028315_2_alg».proof.Proof.Gen.ReferenceIdeal.Read
import proofs.«174658_j70257075028315_2_alg».proof.Proof.Spec
import proofs.«174658_j70257075028315_2_alg».proof.Proof.LibIdeal
import Idealize.ShloMosaic.PureOps.Reduce
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read Cert.Attn
open scoped BigOperators

/-- The array type of the two arguments and of the result. -/
abbrev Arr : Type := (⟨S8x2048x512, .f32⟩ : BufTy).Contents (Elt Ideal)

/-! ## The index maps of the stages, at coordinates -/

theorem lidx_v0 (b : Fin 8) (q k : Fin 2048) (e : Fin 512) : lidx_main_v0 (ix3 b q k) e = ix3 b q e :=
  funext fun a => Fin.ext (by match a with | ⟨0, _⟩ => rfl | ⟨1, _⟩ => rfl | ⟨2, _⟩ => rfl)

theorem ridx_v0 (b : Fin 8) (q k : Fin 2048) (e : Fin 512) : ridx_main_v0 (ix3 b q k) e = ix3 b k e :=
  funext fun a => Fin.ext (by match a with | ⟨0, _⟩ => rfl | ⟨1, _⟩ => rfl | ⟨2, _⟩ => rfl)

theorem lidx_v12 (b : Fin 8) (q : Fin 2048) (d : Fin 512) (k : Fin 2048) : lidx_main_v12 (ix3 b q d) k = ix3 b q k :=
  funext fun a => Fin.ext (by match a with | ⟨0, _⟩ => rfl | ⟨1, _⟩ => rfl | ⟨2, _⟩ => rfl)

theorem ridx_v12 (b : Fin 8) (q : Fin 2048) (d : Fin 512) (k : Fin 2048) : ridx_main_v12 (ix3 b q d) k = ix3 b k d :=
  funext fun a => Fin.ext (by match a with | ⟨0, _⟩ => rfl | ⟨1, _⟩ => rfl | ⟨2, _⟩ => rfl)

theorem idx_v8 (b : Fin 8) (q k : Fin 2048) : idx_main_v8 (ix2 b q) k = ix3 b q k :=
  funext fun a => Fin.ext (by match a with | ⟨0, _⟩ => rfl | ⟨1, _⟩ => rfl | ⟨2, _⟩ => rfl)

theorem idx_v4_v5 (b : Fin 8) (q k : Fin 2048) : idx_main_v4 (idx_main_v5 (ix3 b q k)) = ix2 b q :=
  funext fun a => Fin.ext (by match a with | ⟨0, _⟩ => rfl | ⟨1, _⟩ => rfl)

theorem idx_v9_v10 (b : Fin 8) (q k : Fin 2048) : idx_main_v9 (idx_main_v10 (ix3 b q k)) = ix2 b q :=
  funext fun a => Fin.ext (by match a with | ⟨0, _⟩ => rfl | ⟨1, _⟩ => rfl)

/-! ## The stages at coordinates -/

/-- The first contraction is the score of the row against the key. -/
theorem v0_at (x0 x1 : Arr) (b : Fin 8) (q k : Fin 2048) :
    val_main_v0 (F := Ideal) x0 x1 (ix3 b q k) = score x0 x1 b q k := by
  rw [val_main_v0_apply]
  simp only [lidx_v0, ridx_v0]
  rfl

/-- The witness that dropping the last axis of the score array gives the array of rows. -/
theorem reduces_last : S8x2048x2048.Reduces [2] S8x2048 := by decide

/-- The key axis inserted into a row's index. -/
theorem lift_at (b : Fin 8) (q k : Fin 2048) : reduces_last.lift (ix2 b q) k = ix3 b q k :=
  funext fun a => Fin.ext (by match a with | ⟨0, _⟩ => rfl | ⟨1, _⟩ => rfl | ⟨2, _⟩ => rfl)

/-- The reduction by maximum is the maximum of the row's scores folded from minus infinity. -/
theorem v1_at (x0 x1 : Arr) (b : Fin 8) (q : Fin 2048) :
    val_main_v1 (F := Ideal) x0 x1 (ix2 b q) = (Finset.univ : Finset (Fin 2048)).fold max ⊥ (score x0 x1 b q) := by
  unfold val_main_v1
  rw [Host.reduce_eq_fold_single FloatOps.maximumf _ _ reducesTo_S8x2048x2048_S8x2048_d2 reduces_last h_S_ (ix2 b q)]
  rw [val_main_cst_apply, Ideal.ofBits_def, Cert.LibIdeal.ofBits_neg_inf_f32]
  show (Finset.univ : Finset (Fin 2048)).fold max ⊥
      (fun k : Fin 2048 => val_main_v0 (F := Ideal) x0 x1 (reduces_last.lift (ix2 b q) k)) = _
  have e : (fun k : Fin 2048 => val_main_v0 (F := Ideal) x0 x1 (reduces_last.lift (ix2 b q) k)) = score x0 x1 b q :=
    funext fun k => by rw [lift_at, v0_at]
  rw [e]

/-- The shift is the row maximum as the plain arrangement takes it. -/
theorem v3_at (x0 x1 : Arr) (b : Fin 8) (q : Fin 2048) :
    val_main_v3 (F := Ideal) x0 x1 (ix2 b q) = rowMax (score x0 x1 b q) := by
  rw [val_main_v3_apply, val_main_v2_apply, val_main_cst_0_apply, v1_at, Ideal.ofBits_def,
    Cert.LibIdeal.ofBits_neg_inf_f32, Ideal.maximumf_def]
  rfl

/-- The exponential of the shifted score. -/
theorem v7_at (x0 x1 : Arr) (b : Fin 8) (q k : Fin 2048) :
    val_main_v7 (F := Ideal) x0 x1 (ix3 b q k) = Ideal.exp (score x0 x1 b q k - rowMax (score x0 x1 b q)) := by
  rw [val_main_v7_apply, val_main_v6_apply, val_main_v5_apply, val_main_v4_apply, idx_v4_v5, v3_at, v0_at,
    Ideal.hostUnary_exp_def, Ideal.subf_def]

/-- The denominator: the sum of the exponentials over the keys, taken from zero. -/
theorem v8_at (x0 x1 : Arr) (b : Fin 8) (q : Fin 2048) :
    val_main_v8 (F := Ideal) x0 x1 (ix2 b q)
      = 0 + ∑ j : Fin 2048, Ideal.exp (score x0 x1 b q j - rowMax (score x0 x1 b q)) := by
  rw [val_main_v8_apply, val_main_cst_1_apply, Ideal.ofBits_def, Ideal.ofBits_zero_f32]
  simp only [idx_v8, v7_at]

/-- The weight of key `k` in row `q`. -/
theorem v11_at (x0 x1 : Arr) (b : Fin 8) (q k : Fin 2048) :
    val_main_v11 (F := Ideal) x0 x1 (ix3 b q k)
      = Ideal.div (Ideal.exp (score x0 x1 b q k - rowMax (score x0 x1 b q)))
          (0 + ∑ j : Fin 2048, Ideal.exp (score x0 x1 b q j - rowMax (score x0 x1 b q))) := by
  rw [val_main_v11_apply, val_main_v10_apply, val_main_v9_apply, idx_v9_v10, v8_at, v7_at, Ideal.hostDivf_def]

/-- The reference program's result is the plain arrangement of the specification. -/
theorem ref_eq (x0 x1 : Cert.Attn.SArr.Idx → EReal) :
    Cert.ReferenceIdeal.Read.val_main_v12 (F := Ideal) x0 x1 = Cert.Attn.softmaxArr x0 x1 := by
  funext i
  obtain ⟨b, q, d, rfl⟩ : ∃ b q d, i = ix3 b q d := ⟨i 0, i 1, i 2, eq_ix3 i⟩
  rw [val_main_v12_apply]
  simp only [lidx_v12, ridx_v12, v11_at]
  rfl

end Cert.ReferenceIdeal.RefValue

end
-- ==== Proof.LibReal.lean ====
import Idealize.ShloMosaic.PureOps.Ideal

/-!
# Extended reals that are real numbers

The extended reals are not a ring: subtraction does not cancel and a factor does not move across a sum at the
infinities. For values that are real numbers everything is as on `ℝ`. This file has the predicate "is a real number", its
closure under the operations a small network uses, and the few identities that hold for such values only: `v - v = 0`,
the inverse square root as the power `-1/2`, and `z - (m + log s) = (z - m) - log s`. It also reads a maximum and a
sum over 128 entries of which only the first two are kept.
-/

noncomputable section

namespace Cert.LibReal

open Idealize.ShloMosaic
open scoped BigOperators

/-- The extended real `v` is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem coe_max (a b : ℝ) : ((max a b : ℝ) : EReal) = max (a : EReal) (b : EReal) :=
  EReal.coe_strictMono.monotone.map_max

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max {a b : EReal} (ha : IsReal a) (hb : IsReal b) : IsReal (max a b) := by
  obtain ⟨x, rfl⟩ := ha; obtain ⟨y, rfl⟩ := hb; exact ⟨Max.max x y, (coe_max x y).symm⟩

theorem IsReal.sum {ι : Type*} (s : Finset ι) (f : ι → EReal) (h : ∀ k ∈ s, IsReal (f k)) : IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- A real number minus itself is zero (false at the infinities). -/
theorem IsReal.sub_self {a : EReal} (ha : IsReal a) : a - a = 0 := by
  obtain ⟨x, rfl⟩ := ha
  rw [← EReal.coe_sub, _root_.sub_self, EReal.coe_zero]

/-- The exponential of a real number is a real number. -/
theorem IsReal.exp {a : EReal} (ha : IsReal a) : IsReal (Ideal.exp a) := by
  obtain ⟨x, rfl⟩ := ha; exact ⟨Real.exp x, rfl⟩

/-- On a positive real the inverse square root is the power `-1/2`. -/
theorem rsqrt_eq_pow {t : ℝ} (ht : 0 < t) :
    Ideal.rsqrt (t : EReal) = Ideal.pow (t : EReal) ((-1 / 2 : ℝ) : EReal) := by
  show (if t < 0 then ⊥ else if t = 0 then ⊤ else (((Real.sqrt t)⁻¹ : ℝ) : EReal)) = ((Real.rpow t (-1 / 2) : ℝ) : EReal)
  rw [if_neg (not_lt.mpr ht.le), if_neg ht.ne']
  congr 1
  show (Real.sqrt t)⁻¹ = t ^ (-1 / 2 : ℝ)
  rw [Real.sqrt_eq_rpow, show (-1 / 2 : ℝ) = -(1 / 2) by norm_num, Real.rpow_neg ht.le]

/-- The inverse square root of a real number clipped below at one, as the power `-1/2`, with the clip's operands in
    either order. -/
theorem rsqrt_max_one {d : EReal} (hd : IsReal d) :
    Ideal.rsqrt (max d 1) = Ideal.pow (max 1 d) ((-1 / 2 : ℝ) : EReal) := by
  obtain ⟨r, rfl⟩ := hd
  have h1 : max (r : EReal) 1 = ((Max.max r 1 : ℝ) : EReal) := by rw [coe_max, EReal.coe_one]
  rw [max_comm (1 : EReal), h1]
  exact rsqrt_eq_pow (lt_of_lt_of_le one_pos (le_max_right _ _))

/-- A real number clipped below at one, to a real power, is a real number. -/
theorem isReal_pow_max_one {d : EReal} (hd : IsReal d) (y : ℝ) : IsReal (Ideal.pow (max 1 d) (y : EReal)) := by
  obtain ⟨r, rfl⟩ := hd
  have h1 : max 1 (r : EReal) = ((Max.max 1 r : ℝ) : EReal) := by rw [coe_max, EReal.coe_one]
  rw [h1]
  exact ⟨Real.rpow (Max.max 1 r) y, rfl⟩

/-- For real numbers `z`, `m` and a positive real `s`: `z - (m + log s) = (z - m) - log s`. -/
theorem sub_add_log {z m s : EReal} (hz : IsReal z) (hm : IsReal m) (hs : IsReal s) (hpos : 0 < s) :
    z - (m + Ideal.log s) = (z - m) - Ideal.log s := by
  obtain ⟨a, rfl⟩ := hz; obtain ⟨b, rfl⟩ := hm; obtain ⟨c, rfl⟩ := hs
  have hc : 0 < c := EReal.coe_pos.mp hpos
  have hl : Ideal.log (c : EReal) = ((Real.log c : ℝ) : EReal) := by
    show (if c ≤ 0 then ⊥ else ((Real.log c : ℝ) : EReal)) = _
    rw [if_neg (not_le.mpr hc)]
  rw [hl, ← EReal.coe_add, ← EReal.coe_sub, ← EReal.coe_sub, ← EReal.coe_sub]
  congr 1; ring

/-- A sum of exponentials of real numbers over a nonempty index set is positive. -/
theorem sum_exp_pos {ι : Type*} (s : Finset ι) (hs : s.Nonempty) (f : ι → EReal) (h : ∀ k ∈ s, IsReal (f k)) :
    0 < ∑ k ∈ s, Ideal.exp (f k) := by
  classical
  have hr : ∀ k ∈ s, ∃ r : ℝ, f k = (r : EReal) := h
  choose! g hg using hr
  have e : ∑ k ∈ s, Ideal.exp (f k) = ((∑ k ∈ s, Real.exp (g k) : ℝ) : EReal) := by
    have : ∀ (t : Finset ι), ((∑ k ∈ t, Real.exp (g k) : ℝ) : EReal) = ∑ k ∈ t, ((Real.exp (g k) : ℝ) : EReal) := by
      intro t
      induction t using Finset.induction_on with
      | empty => simp
      | insert a t ha ih => rw [Finset.sum_insert ha, Finset.sum_insert ha, EReal.coe_add, ih]
    rw [this]
    exact Finset.sum_congr rfl fun k hk => by rw [hg k hk]; rfl
  rw [e]
  exact EReal.coe_pos.mpr (Finset.sum_pos (fun k _ => Real.exp_pos _) hs)

/-! ## 128 entries of which the first two are kept -/

/-- A maximum from `-∞` over 128 entries, all but the first two replaced by `-∞`: the larger of the first two. -/
theorem fold_max_first_two (g : Fin 128 → EReal) :
    (Finset.univ : Finset (Fin 128)).fold max ⊥ (fun c => if c.val < 2 then g c else ⊥)
      = max (g ⟨0, by norm_num⟩) (g ⟨1, by norm_num⟩) := by
  apply le_antisymm
  · refine (Finset.fold_max_le _).mpr ⟨bot_le, fun c _ => ?_⟩
    by_cases h : c.val < 2
    · rw [if_pos h]
      have h01 : c.val = 0 ∨ c.val = 1 := by omega
      rcases h01 with h0 | h1
      · have : c = ⟨0, by norm_num⟩ := Fin.ext h0
        rw [this]; exact le_max_left _ _
      · have : c = ⟨1, by norm_num⟩ := Fin.ext h1
        rw [this]; exact le_max_right _ _
    · rw [if_neg h]; exact bot_le
  · refine max_le ?_ ?_
    · refine (Finset.le_fold_max _).mpr (Or.inr ⟨⟨0, by norm_num⟩, Finset.mem_univ _, ?_⟩)
      rw [if_pos (by norm_num)]
    · refine (Finset.le_fold_max _).mpr (Or.inr ⟨⟨1, by norm_num⟩, Finset.mem_univ _, ?_⟩)
      rw [if_pos (by norm_num)]

/-- A sum over 128 entries, all but the first two replaced by zero: the sum of the first two. -/
theorem sum_first_two (g : Fin 128 → EReal) :
    ∑ c : Fin 128, (if c.val < 2 then g c else 0) = g ⟨0, by norm_num⟩ + g ⟨1, by norm_num⟩ := by
  rw [Finset.sum_eq_add_of_mem (⟨0, by norm_num⟩ : Fin 128) ⟨1, by norm_num⟩ (Finset.mem_univ _) (Finset.mem_univ _)
    (by intro h; exact absurd (congrArg Fin.val h) (by norm_num))
    (fun c _ hc => if_neg fun h => by
      have h01 : c.val = 0 ∨ c.val = 1 := by omega
      rcases h01 with h0 | h1
      · exact hc.1 (Fin.ext h0)
      · exact hc.2 (Fin.ext h1))]
  rw [if_pos (by norm_num), if_pos (by norm_num)]

end Cert.LibReal

end
-- ==== Proof.Finite.lean ====
/-
  From the precondition to real entries.

  The precondition compares the absolute value of every entry of both arguments with plus infinity and takes the
  conjunction of all the comparisons. When it holds, every entry has an absolute value below plus infinity; an extended
  real with that property is neither infinity, so it is a real number.
-/
import proofs.«174658_j70257075028315_2_alg».proof.Proof.Gen.Pre_finite_inputs
import proofs.«174658_j70257075028315_2_alg».proof.Proof.LibReal
import Idealize.ShloMosaic.Lib.ReduceAll
import Idealize.ShloMosaic.Lib.ValueIdx
import Idealize.ShloMosaic.PureOps.Ideal.Laws

noncomputable section

namespace Cert.Attn

open Idealize.ShloMosaic

/-- The scalar shape has one index. -/
instance subsingleton_scalar_idx : Subsingleton Cert.Pre_finite_inputs.S_.Idx :=
  ⟨fun _ _ => funext fun d => d.elim0⟩

/-- The single-precision pattern `0x7F800000` is `+∞`. -/
theorem ofBits_pos_inf_f32 : Ideal.ofBits .f32 0x7F800000#32 = (⊤ : EReal) := by
  simp [Ideal.ofBits, Ideal.ieee]

/-- An extended real whose absolute value is below plus infinity is a real number. -/
theorem isReal_of_abs_lt_top (x : EReal) (h : max x (-x) < ⊤) : Cert.LibReal.IsReal x := by
  induction x using EReal.rec with
  | bot => exact absurd h (by simp)
  | coe r => exact ⟨r, rfl⟩
  | top => exact absurd h (by simp)

/-- One comparison of the precondition, read at an entry. -/
theorem isReal_of_cmp (x : EReal)
    (h : FloatOps.cmpf (F := Ideal) (φ := .f32) .olt (FloatOps.hostAbsf (F := Ideal) (φ := .f32) x)
      (FloatOps.ofBits (F := Ideal) .f32 0x7F800000#32) = 1#1) : Cert.LibReal.IsReal x := by
  apply isReal_of_abs_lt_top
  rw [Ideal.cmpf_def, Ideal.hostAbsf_def, Ideal.absf_def, Ideal.ofBits_def, ofBits_pos_inf_f32] at h
  change BitVec.ofBool (decide (max x (-x) < ⊤)) = 1#1 at h
  by_contra hn
  rw [decide_eq_false hn] at h
  exact absurd h (by decide)

/-- Under the precondition every entry of both arguments is a real number. -/
theorem real_of_pre (x0 x1 : FVec Ideal Cert.Pre_finite_inputs.S8x2048x512 .f32)
    (h : Cert.Pre_finite_inputs.fn (F := Ideal) x0 x1 = fun _ => 1#1) :
    (∀ i, Cert.LibReal.IsReal (x0 i)) ∧ (∀ i, Cert.LibReal.IsReal (x1 i)) := by
  have h0 := congrFun h ValueIdx.ix0
  dsimp only [Cert.Pre_finite_inputs.fn] at h0
  obtain ⟨ha, hb⟩ := IntOp.andi_eq_one.1 h0
  exact ⟨fun i => isReal_of_cmp _ (Host.reduce_andi_all _ _ _ _ _ ha i),
    fun i => isReal_of_cmp _ (Host.reduce_andi_all _ _ _ _ _ hb i)⟩

end Cert.Attn

end
-- ==== Proof.LibBlockedSum.lean ====
/-
  A sum over `Fin N` accumulated block by block. Cut `0, …, N − 1` into consecutive blocks of `B` indices. The partial sum
  over the indices below `B · k` is empty at `k = 0`; passing from `k` to `k + 1` adds the sum over the `B` indices
  `B · k, …, B · k + B − 1` of block `k`; and once `B · k` reaches `N` the partial sum is the whole sum. The three
  statements hold in any additive commutative monoid (no subtraction, no cancellation), so they apply to the extended
  reals as they are.
-/
import Mathlib.Algebra.BigOperators.Fin
import Mathlib.Tactic.Common

open scoped BigOperators

namespace Cert.LibBlockedSum

variable {M : Type*} [AddCommMonoid M] {N : ℕ}

/-- The `j`-th index of block `k` lies below `N` when blocks `0, …, k` do. -/
theorem block_lt {B k : ℕ} (h : B * (k + 1) ≤ N) (j : Fin B) : B * k + j.val < N := by
  have hj := j.isLt
  have e : B * (k + 1) = B * k + B := Nat.mul_add_one B k
  omega

/-- Before the first block nothing has been summed. -/
theorem sum_lt_zero (B : ℕ) (f : Fin N → M) :
    ∑ i ∈ Finset.univ.filter (fun i : Fin N => i.val < B * 0), f i = 0 := by
  rw [Finset.filter_false_of_mem fun i _ => by simp]
  exact Finset.sum_empty

/-- The partial sum below `B · (k + 1)` is the partial sum below `B · k` plus the sum over block `k`. -/
theorem sum_lt_succ (B k : ℕ) (h : B * (k + 1) ≤ N) (f : Fin N → M) :
    ∑ i ∈ Finset.univ.filter (fun i : Fin N => i.val < B * (k + 1)), f i
      = (∑ i ∈ Finset.univ.filter (fun i : Fin N => i.val < B * k), f i) + ∑ j : Fin B, f ⟨B * k + j.val, block_lt h j⟩ := by
  have e : B * (k + 1) = B * k + B := Nat.mul_add_one B k
  -- the indices below `B · (k + 1)` are those below `B · k` together with those of block `k`
  have hsplit : (Finset.univ.filter fun i : Fin N => i.val < B * (k + 1))
      = (Finset.univ.filter fun i : Fin N => i.val < B * k)
        ∪ (Finset.univ.filter fun i : Fin N => B * k ≤ i.val ∧ i.val < B * (k + 1)) := by
    ext i
    simp only [Finset.mem_filter, Finset.mem_univ, true_and, Finset.mem_union]
    omega
  have hdisj : Disjoint (Finset.univ.filter fun i : Fin N => i.val < B * k)
      (Finset.univ.filter fun i : Fin N => B * k ≤ i.val ∧ i.val < B * (k + 1)) := by
    rw [Finset.disjoint_filter]
    intro i _ h1 h2
    omega
  rw [hsplit, Finset.sum_union hdisj]
  congr 1
  -- block `k` is the image of `Fin B` under `j ↦ B · k + j`
  symm
  refine Finset.sum_bij (fun j _ => (⟨B * k + j.val, block_lt h j⟩ : Fin N)) ?_ ?_ ?_ ?_
  · intro j _
    have hj := j.isLt
    simp only [Finset.mem_filter, Finset.mem_univ, true_and]
    omega
  · intro a _ b _ hab
    have := congrArg Fin.val hab
    simp only at this
    exact Fin.ext (by omega)
  · intro i hi
    simp only [Finset.mem_filter, Finset.mem_univ, true_and] at hi
    exact ⟨⟨i.val - B * k, by omega⟩, Finset.mem_univ _, Fin.ext (by simp only; omega)⟩
  · intro j _
    rfl

/-- Once the blocks cover `0, …, N − 1` the partial sum is the whole sum. -/
theorem sum_lt_all (B k : ℕ) (h : N ≤ B * k) (f : Fin N → M) :
    ∑ i ∈ Finset.univ.filter (fun i : Fin N => i.val < B * k), f i = ∑ i, f i := by
  rw [Finset.filter_true_of_mem fun i _ => lt_of_lt_of_le i.isLt h]

end Cert.LibBlockedSum
-- ==== Proof.LibSoftmaxShift.lean ====
/-
  A softmax on the extended reals does not depend on its shift. For real logits l and ANY real number c, the quotient
  exp (l k - c) / ∑ j, exp (l j - c) — computed with the exact extended-real exponential and division — is the real
  number exp (l k) / ∑ j, exp (l j): a program that shifts by the row maximum, one that shifts several rows by a common
  maximum and one that does not shift at all compute the same softmax. With it: a maximum folded from minus infinity
  over a nonempty family of real numbers is a real number (so the usual shift is real), the single-precision words of
  1 and of minus infinity, and the product of two one-bit tests read as 0/1 numbers as their conjunction.
-/
import Idealize.ShloMosaic.PureOps.Ideal.Laws
import proofs.«174658_j70257075028315_2_alg».proof.Proof.LibReal
import proofs.«174658_j70257075028315_2_alg».proof.Proof.LibIdeal

noncomputable section

namespace Cert.LibSoftmax

open Idealize.ShloMosaic Cert.LibReal
open scoped BigOperators

/-- The single-precision pattern `0x3F800000` is `1`. -/
theorem ofBits_one : Ideal.ofBits .f32 0x3F800000#32 = (1 : EReal) := by
  simp [Ideal.ofBits, Ideal.ieee, -EReal.coe_mul]; norm_num

/-- The single-precision pattern `0xFF800000` is minus infinity. -/
theorem ofBits_negInf : Ideal.ofBits .f32 0xFF800000#32 = (⊥ : EReal) := by
  simp [Ideal.ofBits, Ideal.ieee]

/-! ## A quotient of exponentials does not depend on the shift -/

/-- For real logits the quotient exp (l k - c) / ∑ exp (l j - c), computed on the extended reals with any real
    shift c, is the real number exp (l k) / ∑ exp (l j). -/
theorem softmax_shift {ι : Type*} (s : Finset ι) (l : ι → ℝ) (c : ℝ) (k : ι) (hk : k ∈ s) :
    Ideal.div (Ideal.exp ((l k : EReal) - (c : EReal))) (∑ j ∈ s, Ideal.exp ((l j : EReal) - (c : EReal)))
      = ((Real.exp (l k) / ∑ j ∈ s, Real.exp (l j) : ℝ) : EReal) := by
  have hs : ∑ j ∈ s, Ideal.exp ((l j : EReal) - (c : EReal)) = ((∑ j ∈ s, Real.exp (l j - c) : ℝ) : EReal) := by
    rw [Cert.LibIdeal.coe_sum]
    refine Finset.sum_congr rfl fun j _ => ?_
    rw [← EReal.coe_sub]; rfl
  have hpos : 0 < ∑ j ∈ s, Real.exp (l j - c) := Finset.sum_pos (fun j _ => Real.exp_pos _) ⟨k, hk⟩
  have hpos' : 0 < ∑ j ∈ s, Real.exp (l j) := Finset.sum_pos (fun j _ => Real.exp_pos _) ⟨k, hk⟩
  rw [hs, ← EReal.coe_sub, Ideal.exp_coe, Ideal.div_coe hpos.ne', ← EReal.coe_mul]
  congr 1
  have e : ∑ j ∈ s, Real.exp (l j - c) = (∑ j ∈ s, Real.exp (l j)) * Real.exp (-c) := by
    rw [Finset.sum_mul]
    refine Finset.sum_congr rfl fun j _ => ?_
    rw [← Real.exp_add, sub_eq_add_neg]
  rw [e, sub_eq_add_neg, Real.exp_add]
  have h1 : Real.exp (-c) ≠ 0 := (Real.exp_pos _).ne'
  field_simp

/-- A maximum folded from minus infinity over a nonempty family of real numbers is a real number. -/
theorem isReal_fold_max {ι : Type*} (s : Finset ι) (hs : s.Nonempty) (l : ι → EReal) (h : ∀ j ∈ s, IsReal (l j)) :
    IsReal (s.fold max ⊥ l) := by
  classical
  induction hs using Finset.Nonempty.cons_induction with
  | singleton a =>
    rw [Finset.fold_singleton, max_bot_right]
    exact h a (Finset.mem_singleton_self a)
  | cons a s ha hs ih =>
    rw [Finset.fold_cons]
    exact (h a (Finset.mem_cons_self a s)).max (ih fun j hj => h j (Finset.mem_cons_of_mem hj))

/-- The product of two one-bit tests read as 0/1 numbers is their conjunction read as a number. -/
theorem bits_mul (b₁ b₂ : BitVec 1) :
    ((((b₁.setWidth 32).toInt : ℝ) : EReal)) * ((((b₂.setWidth 32).toInt : ℝ) : EReal))
      = (((IntOp.andi b₁ b₂).toNat : ℝ) : EReal) := by
  rcases BitVec.eq_zero_or_eq_one b₁ with rfl | rfl <;> rcases BitVec.eq_zero_or_eq_one b₂ with rfl | rfl <;>
    simp [IntOp.andi]

end Cert.LibSoftmax

end
-- ==== Proof.OnlineSoftmax.lean ====
/-
  The streaming softmax-attention row equals the plain one when every score and value is a real number.

  Write σ k and ν k for the real scores and values of a row. After n ≥ 1 chunks the running maximum is a real number
  μ, and the carried numerator is the real number ∑ exp (σ k - μ) · ν k over the keys k < 128 · n seen so far; the
  carried denominator is the same expression with every value equal to one. Before the first chunk the maximum is minus
  infinity and both sums are empty. A new chunk raises the shift from μ to μ': the factor exp (μ - μ') turns every
  exp (σ k - μ) into exp (σ k - μ'), and at the first chunk the factor exp (-∞ - μ') = 0 multiplies an empty sum. After
  all 16 chunks the quotient is (∑ exp (σ k - μ) · ν k) / (∑ exp (σ k - μ)), and the common factor exp (-μ) cancels; the
  plain arrangement gives the same quotient because a softmax does not depend on its real shift.
-/
import proofs.«174658_j70257075028315_2_alg».proof.Proof.Spec
import proofs.«174658_j70257075028315_2_alg».proof.Proof.LibBlockedSum
import proofs.«174658_j70257075028315_2_alg».proof.Proof.LibSoftmaxShift

noncomputable section

namespace Cert.Attn

open Idealize.ShloMosaic Cert.LibReal
open scoped BigOperators

/-- The carried denominator is the carried numerator for values that are all equal to one. -/
theorem runDen_eq_runNum_one (s : Fin 2048 → EReal) (n : ℕ) : runDen s n = runNum s (fun _ => 1) n := by
  induction n with
  | zero => rfl
  | succ n ih =>
    rw [runDen, runNum]
    by_cases h : n < 16
    · rw [dif_pos h, dif_pos h, ih]
      simp only [mul_one]
    · rw [dif_neg h, dif_neg h, ih]

/-- The maximum of a chunk of real scores is a real number. -/
theorem isReal_chunkMax (s : Fin 2048 → EReal) (hs : ∀ k, IsReal (s k)) (n : Fin 16) : IsReal (chunkMax s n) :=
  Cert.LibSoftmax.isReal_fold_max _ Finset.univ_nonempty _ fun j _ => hs (keyOf n j)

/-- After at least one chunk the running maximum of real scores is a real number. -/
theorem isReal_runMax (s : Fin 2048 → EReal) (hs : ∀ k, IsReal (s k)) (n : ℕ) (h1 : 1 ≤ n) (h16 : n ≤ 16) :
    IsReal (runMax s n) := by
  induction n with
  | zero => exact absurd h1 (by norm_num)
  | succ n ih =>
    have hn : n < 16 := h16
    have e : runMax s (n + 1) = max (runMax s n) (chunkMax s ⟨n, hn⟩) := runMax_succ s ⟨n, hn⟩
    rw [e]
    rcases Nat.eq_zero_or_pos n with h0 | hpos
    · subst h0
      rw [show runMax s 0 = ⊥ from rfl, max_bot_left]
      exact isReal_chunkMax s hs _
    · exact (ih hpos (Nat.le_of_lt hn)).max (isReal_chunkMax s hs _)

/-- Moving a partial numerator from the shift m to the real shift μ': either m is minus infinity and nothing has
    been summed yet (the factor is exp (-∞) = 0), or m is a real number and exp (m - μ') · exp (σ k - m) = exp (σ k - μ'). -/
theorem rescale (σ ν : Fin 2048 → ℝ) (P : Finset (Fin 2048)) (m : EReal) (μ' : ℝ)
    (h : (m = ⊥ ∧ P = ∅) ∨ IsReal m) :
    Ideal.exp (m - (μ' : EReal)) * ((∑ k ∈ P, Real.exp (σ k - m.toReal) * ν k : ℝ) : EReal)
      = ((∑ k ∈ P, Real.exp (σ k - μ') * ν k : ℝ) : EReal) := by
  rcases h with ⟨rfl, rfl⟩ | ⟨μ, rfl⟩
  · rw [EReal.bot_sub, Ideal.exp_bot, zero_mul, Finset.sum_empty, EReal.coe_zero]
  · rw [EReal.toReal_coe, ← EReal.coe_sub, Ideal.exp_coe, ← EReal.coe_mul, Finset.mul_sum]
    congr 1
    refine Finset.sum_congr rfl fun k _ => ?_
    rw [← mul_assoc, ← Real.exp_add]
    congr 2
    ring

/-- The carried numerator after n chunks: the sum over the keys seen so far, at the shift of the running maximum. -/
theorem runNum_eq (s v : Fin 2048 → EReal) (σ ν : Fin 2048 → ℝ) (hs : ∀ k, s k = (σ k : EReal))
    (hv : ∀ k, v k = (ν k : EReal)) (n : ℕ) (hn : n ≤ 16) :
    runNum s v n
      = ((∑ k ∈ Finset.univ.filter (fun k : Fin 2048 => k.val < 128 * n),
          Real.exp (σ k - (runMax s n).toReal) * ν k : ℝ) : EReal) := by
  induction n with
  | zero =>
    rw [Cert.LibBlockedSum.sum_lt_zero 128, EReal.coe_zero]
    rfl
  | succ n ih =>
    have hlt : n < 16 := hn
    obtain ⟨μ', hμ'⟩ := isReal_runMax s (fun k => ⟨σ k, hs k⟩) (n + 1) (Nat.succ_le_succ (Nat.zero_le n)) hn
    have hstep : runNum s v (n + 1) = Ideal.exp (runMax s n - runMax s (n + 1)) * runNum s v n
        + ∑ j : Fin 128, Ideal.exp (s (keyOf ⟨n, hlt⟩ j) - runMax s (n + 1)) * v (keyOf ⟨n, hlt⟩ j) :=
      runNum_succ s v ⟨n, hlt⟩
    -- the earlier keys, moved to the new shift
    have hcase : (runMax s n = ⊥ ∧ Finset.univ.filter (fun k : Fin 2048 => k.val < 128 * n) = ∅)
        ∨ IsReal (runMax s n) := by
      rcases Nat.eq_zero_or_pos n with h0 | hpos
      · subst h0
        exact Or.inl ⟨rfl, Finset.filter_false_of_mem fun i _ => by simp⟩
      · exact Or.inr (isReal_runMax s (fun k => ⟨σ k, hs k⟩) n hpos (Nat.le_of_lt hlt))
    -- the new chunk's own terms
    have hchunk : ∑ j : Fin 128, Ideal.exp (s (keyOf ⟨n, hlt⟩ j) - (μ' : EReal)) * v (keyOf ⟨n, hlt⟩ j)
        = ((∑ j : Fin 128, Real.exp (σ (keyOf ⟨n, hlt⟩ j) - μ') * ν (keyOf ⟨n, hlt⟩ j) : ℝ) : EReal) := by
      rw [Cert.LibIdeal.coe_sum]
      refine Finset.sum_congr rfl fun j _ => ?_
      rw [hs, hv, ← EReal.coe_sub, Ideal.exp_coe, ← EReal.coe_mul]
    rw [hstep, ih (Nat.le_of_lt hlt), hμ', EReal.toReal_coe, rescale σ ν _ _ μ' hcase, hchunk, ← EReal.coe_add]
    congr 1
    rw [Cert.LibBlockedSum.sum_lt_succ 128 n (by omega) (fun k => Real.exp (σ k - μ') * ν k)]
    rfl

/-- The streaming arrangement and the plain arrangement of a softmax-attention row agree on real scores and values. -/
theorem online_eq_softmaxAttn (s v : Fin 2048 → EReal) (hs : ∀ k, Cert.LibReal.IsReal (s k))
    (hv : ∀ k, Cert.LibReal.IsReal (v k)) : online s v = softmaxAttn s v := by
  obtain ⟨μ, hμ⟩ := isReal_runMax s hs 16 (by norm_num) le_rfl
  obtain ⟨M, hM⟩ : IsReal (rowMax s) := by
    unfold rowMax
    rw [max_bot_left]
    exact Cert.LibSoftmax.isReal_fold_max _ Finset.univ_nonempty _ fun k _ => hs k
  choose σ hσ using hs
  choose ν hν using hv
  -- the streaming side: numerator and denominator after all 16 chunks, at the shift μ
  have hA := runNum_eq s v σ ν hσ hν 16 le_rfl
  have hL : runDen s 16 = _ := (runDen_eq_runNum_one s 16).trans
    (runNum_eq s (fun _ => 1) σ (fun _ => 1) hσ (fun _ => EReal.coe_one.symm) 16 le_rfl)
  rw [hμ, EReal.toReal_coe, Cert.LibBlockedSum.sum_lt_all 128 16 (by norm_num)] at hA hL
  simp only [mul_one] at hL
  have hLpos : 0 < ∑ k : Fin 2048, Real.exp (σ k - μ) :=
    Finset.sum_pos (fun k _ => Real.exp_pos _) Finset.univ_nonempty
  -- the plain side: every weight is the real softmax weight
  have hw : ∀ k : Fin 2048,
      Ideal.div (Ideal.exp (s k - (M : EReal))) (0 + ∑ j : Fin 2048, Ideal.exp (s j - (M : EReal))) * v k
        = ((Real.exp (σ k) / (∑ j : Fin 2048, Real.exp (σ j)) * ν k : ℝ) : EReal) := fun k => by
    rw [zero_add, hν, EReal.coe_mul, ← Cert.LibSoftmax.softmax_shift Finset.univ σ M k (Finset.mem_univ k)]
    simp only [hσ]
  unfold online softmaxAttn
  rw [hA, hL, Ideal.div_coe hLpos.ne', ← EReal.coe_mul, hM, Finset.sum_congr rfl fun k _ => hw k,
    ← Cert.LibIdeal.coe_sum]
  congr 1
  -- real algebra: the factor exp (-μ) cancels
  have hZpos : 0 < ∑ j : Fin 2048, Real.exp (σ j) :=
    Finset.sum_pos (fun k _ => Real.exp_pos _) Finset.univ_nonempty
  have hE : Real.exp (-μ) ≠ 0 := (Real.exp_pos _).ne'
  have e1 : ∀ k : Fin 2048, Real.exp (σ k - μ) = Real.exp (σ k) * Real.exp (-μ) := fun k => by
    rw [sub_eq_add_neg, Real.exp_add]
  simp only [e1]
  rw [← Finset.sum_mul, Finset.sum_mul]
  refine Finset.sum_congr rfl fun k _ => ?_
  have hZ := hZpos.ne'
  field_simp
-- ==== Proof.lean ====
/-
  A streaming ("flash") attention kernel with the keys as values, against plain softmax attention, over the extended
  reals and for finite inputs.

  Both programs compute, for batch b, query row q and feature d, the number
      (∑ₖ exp (s k − M) · key (b, k, d)) / (∑ₖ exp (s k − M)),      s k = ∑ₑ query (b, q, e) · key (b, k, e),
  the reference with M the row maximum, dividing each weight before the weighted sum; the kernel in 16 chunks of 128 keys,
  carrying a running maximum m and the two sums at the shift m, rescaling both by exp (m − m') whenever a chunk raises the
  maximum to m', and dividing once at the end. With every input a real number all scores are real, every maximum after
  the first chunk is real, the denominator is a positive real, and both sides are the same real number: a softmax does
  not depend on its real shift, and a quotient distributes over a finite real sum. Before the first chunk the running
  maximum is minus infinity, where exp (−∞ − m') = 0 multiplies the (zero) initial sums.

  The kernel's value is read off its run: one grid point (64 query rows, all keys resident) leaves in its output block
  the quotient of its last numerator by its last denominator (Pieces, Point), the carried state read one row at a time is
  the row-level recursion (TripAt, StateAt), and the 32 output blocks tile the array (ArrayValue). The reference's value
  is read one operation at a time (RefAt). The row-level identity is OnlineSoftmax; the inputs are real numbers by the
  precondition (Finite). The idealization rewrote no operation, so the kernel's idealization is its own text.
-/
import proofs.«174658_j70257075028315_2_alg».proof.Defs
import proofs.«174658_j70257075028315_2_alg».proof.Proof.Gen.Kernel
import proofs.«174658_j70257075028315_2_alg».proof.Proof.Gen.Kernel.Skeleton
import proofs.«174658_j70257075028315_2_alg».proof.Proof.Gen.Kernel.Loops
import proofs.«174658_j70257075028315_2_alg».proof.Proof.Gen.Kernel.Launch
import proofs.«174658_j70257075028315_2_alg».proof.Proof.Gen.Kernel.Points
import proofs.«174658_j70257075028315_2_alg».proof.Proof.Gen.Kernel.Frame
import proofs.«174658_j70257075028315_2_alg».proof.Proof.Gen.KernelIdeal
import proofs.«174658_j70257075028315_2_alg».proof.Proof.Gen.KernelIdeal.Skeleton
import proofs.«174658_j70257075028315_2_alg».proof.Proof.Gen.KernelIdeal.Loops
import proofs.«174658_j70257075028315_2_alg».proof.Proof.Gen.KernelIdeal.Launch
import proofs.«174658_j70257075028315_2_alg».proof.Proof.Gen.KernelIdeal.Points
import proofs.«174658_j70257075028315_2_alg».proof.Proof.Gen.KernelIdeal.Frame
import proofs.«174658_j70257075028315_2_alg».proof.Proof.Gen.ReferenceIdeal
import proofs.«174658_j70257075028315_2_alg».proof.Proof.Gen.Pre_finite_inputs
import proofs.«174658_j70257075028315_2_alg».proof.Proof.Gen.KernelIdeal.Value
import proofs.«174658_j70257075028315_2_alg».proof.Proof.Gen.ReferenceIdeal.Run
import proofs.«174658_j70257075028315_2_alg».proof.Proof.Gen.ReferenceIdeal.Read
import Idealize.ShloMosaic.Adequacy
import Idealize.ShloMosaic.Init
import proofs.«174658_j70257075028315_2_alg».proof.Proof.ArrayValue
import proofs.«174658_j70257075028315_2_alg».proof.Proof.RefAt
import proofs.«174658_j70257075028315_2_alg».proof.Proof.Finite
import proofs.«174658_j70257075028315_2_alg».proof.Proof.OnlineSoftmax

noncomputable section

namespace Cert.Proof

open Idealize.ShloMosaic Idealize.ShloMosaic.TcCoe Idealize.ShloMosaic.ValueIdx Idealize.SL.Sem Cert.Attn Cert.LibReal

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- A score of real queries against real keys is a real number: a finite sum of products of reals. -/
theorem isReal_score (Q K : SArr.Idx → EReal) (hQ : ∀ i, IsReal (Q i)) (hK : ∀ i, IsReal (K i)) (b : Fin 8) (q k : Fin 2048) :
    IsReal (score Q K b q k) :=
  IsReal.sum Finset.univ _ fun d _ => (hQ _).mul (hK _)

/-- For real arrays the streaming and the plain arrangement are one array. -/
theorem softmaxArr_eq_onlineArr (Q K : SArr.Idx → EReal) (hQ : ∀ i, IsReal (Q i)) (hK : ∀ i, IsReal (K i)) :
    softmaxArr Q K = onlineArr Q K :=
  funext fun i => (online_eq_softmaxAttn _ _ (fun k => isReal_score Q K hQ hK (i 0) (i 1) k) (fun k => hK _)).symm

/-- From memories agreeing on finite arguments both idealized programs end with the same result array: the kernel's
    run ends at the streaming arrangement, the reference's at the plain one, and on real arrays the two agree. -/
theorem algebraic : Cert.algebraic_KernelIdeal_ReferenceIdeal := by
  intro m ρ m' ρ' hpre hagree
  refine ⟨fun c => onlineArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Flash.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK⟩ := real_of_pre _ _ (hpre c)
  rw [(hagree c).1, (hagree c).2]
  exact (Cert.ReferenceIdeal.Read.val_main_v12_eq _ _).trans
    ((Cert.ReferenceIdeal.RefValue.ref_eq _ _).trans (softmaxArr_eq_onlineArr _ _ hQ hK))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
